-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8x8x256 : Shape := ⟨4, ![256, 8, 8, 256]⟩
abbrev S256x16x16x256 : Shape := ⟨4, ![256, 16, 16, 256]⟩
abbrev S256x323 : Shape := ⟨2, ![256, 323]⟩
abbrev S323 : Shape := ⟨1, ![323]⟩
abbrev S256 : Shape := ⟨1, ![256]⟩
abbrev S_ : Shape := ⟨0, ![]⟩

class Facts : Prop where
  bcast_S_S256x8x8x256 : S_.BroadcastsInDim S256x8x8x256 (![] : Fin 0 → Fin S256x8x8x256.rank)
  reducesTo_S256x8x8x256_S_d0_1_2_3 : S256x8x8x256.ReducesTo [0, 1, 2, 3] S_
  h_S_ : 0 < S_.numel
  bcast_S_S256x16x16x256 : S_.BroadcastsInDim S256x16x16x256 (![] : Fin 0 → Fin S256x16x16x256.rank)
  reducesTo_S256x16x16x256_S_d0_1_2_3 : S256x16x16x256.ReducesTo [0, 1, 2, 3] S_
  bcast_S_S256x323 : S_.BroadcastsInDim S256x323 (![] : Fin 0 → Fin S256x323.rank)
  reducesTo_S256x323_S_d0_1 : S256x323.ReducesTo [0, 1] S_
  bcast_S_S323 : S_.BroadcastsInDim S323 (![] : Fin 0 → Fin S323.rank)
  reducesTo_S323_S_d0 : S323.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S323 1) : IVec S_ 1 :=
  let main_c_5 : IVec S_ 1 := constantI S_ 1 1#1
  let main_v17 : IVec S_ 1 := (fun x v => Host.reduce IntOp.andi x v reducesTo_S323_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S256x8x8x256 .f32) (main_arg1 : FVec F S256x16x16x256 .f32) (main_arg2 : FVec F S256x323 .f32) (main_arg3 : FVec F S323 .f32) (main_arg4 : FVec F S256 .f32) (main_arg5 : FVec F S256 .f32) : IVec S_ 1 :=
  let main_v0 : FVec F S256x8x8x256 .f32 := Host.absf main_arg0
  let main_cst : FVec F S_ .f32 := constant S_ .f32 0x7F800000#32
  let main_v1 : FVec F S256x8x8x256 .f32 := broadcastInDim S256x8x8x256 ![] bcast_S_S256x8x8x256 main_cst
  let main_v2 : IVec S256x8x8x256 1 := cmpf .olt main_v0 main_v1
  let main_c : IVec S_ 1 := constantI S_ 1 1#1
  let main_v3 : IVec S_ 1 := (fun x v => Host.reduce IntOp.andi x v reducesTo_S256x8x8x256_S_d0_1_2_3 h_S_) main_v2 main_c
  let main_v4 : FVec F S256x16x16x256 .f32 := Host.absf main_arg1
  let main_cst_0 : FVec F S_ .f32 := constant S_ .f32 0x7F800000#32
  let main_v5 : FVec F S256x16x16x256 .f32 := broadcastInDim S256x16x16x256 ![] bcast_S_S256x16x16x256 main_cst_0
  let main_v6 : IVec S256x16x16x256 1 := cmpf .olt main_v4 main_v5
  let main_c_1 : IVec S_ 1 := constantI S_ 1 1#1
  let main_v7 : IVec S_ 1 := (fun x v => Host.reduce IntOp.andi x v reducesTo_S256x16x16x256_S_d0_1_2_3 h_S_) main_v6 main_c_1
  let main_v8 : IVec S_ 1 := andi main_v3 main_v7
  let main_v9 : FVec F S256x323 .f32 := Host.absf main_arg2
  let main_cst_2 : FVec F S_ .f32 := constant S_ .f32 0x7F800000#32
  let main_v10 : FVec F S256x323 .f32 := broadcastInDim S256x323 ![] bcast_S_S256x323 main_cst_2
  let main_v11 : IVec S256x323 1 := cmpf .olt main_v9 main_v10
  let main_c_3 : IVec S_ 1 := constantI S_ 1 1#1
  let main_v12 : IVec S_ 1 := (fun x v => Host.reduce IntOp.andi x v reducesTo_S256x323_S_d0_1 h_S_) main_v11 main_c_3
  let main_v13 : IVec S_ 1 := andi main_v8 main_v12
  let main_v14 : FVec F S323 .f32 := Host.absf main_arg3
  let main_cst_4 : FVec F S_ .f32 := constant S_ .f32 0x7F800000#32
  let main_v15 : FVec F S323 .f32 := broadcastInDim S323 ![] bcast_S_S323 main_cst_4
  let main_v16 : IVec S323 1 := cmpf .olt main_v14 main_v15
  fn_part1 (F := F) main_arg4 main_arg5 main_v13 main_v16
-- ==== Kernel.lean ====
abbrev S256x8x8x256 : Shape := ⟨4, ![256, 8, 8, 256]⟩
abbrev S256x16x16x256 : Shape := ⟨4, ![256, 16, 16, 256]⟩
abbrev S256x323 : Shape := ⟨2, ![256, 323]⟩
abbrev S323 : Shape := ⟨1, ![323]⟩
abbrev S256 : Shape := ⟨1, ![256]⟩
abbrev S256x256x256 : Shape := ⟨3, ![256, 256, 256]⟩
abbrev S256x64x256 : Shape := ⟨3, ![256, 64, 256]⟩
abbrev S256x3 : Shape := ⟨2, ![256, 3]⟩
abbrev S256x320 : Shape := ⟨2, ![256, 320]⟩
abbrev S3 : Shape := ⟨1, ![3]⟩
abbrev S320 : Shape := ⟨1, ![320]⟩
abbrev S1x256x256 : Shape := ⟨3, ![1, 256, 256]⟩
abbrev S1x64x256 : Shape := ⟨3, ![1, 64, 256]⟩
abbrev S256x256 : Shape := ⟨2, ![256, 256]⟩
abbrev S64x256 : Shape := ⟨2, ![64, 256]⟩
abbrev S320x256 : Shape := ⟨2, ![320, 256]⟩
abbrev S320x3 : Shape := ⟨2, ![320, 3]⟩
abbrev S1x3 : Shape := ⟨2, ![1, 3]⟩
abbrev S320x320 : Shape := ⟨2, ![320, 320]⟩
abbrev S1x320 : Shape := ⟨2, ![1, 320]⟩
abbrev S320x1 : Shape := ⟨2, ![320, 1]⟩
abbrev S320x255 : Shape := ⟨2, ![320, 255]⟩
abbrev S1x256 : Shape := ⟨2, ![1, 256]⟩

abbrev nBuf : Space → Nat
  | .hbm => 14
  | .vmem => 12
  | .smem => 0
  | _ => 0

abbrev bufTy : (tb : Table) → Fin (tcTables nBuf tb) → BufTy
  | .hbm, ⟨0, _⟩ => ⟨S256x8x8x256, .f32⟩
  | .hbm, ⟨1, _⟩ => ⟨S256x16x16x256, .f32⟩
  | .hbm, ⟨2, _⟩ => ⟨S256x323, .f32⟩
  | .hbm, ⟨3, _⟩ => ⟨S323, .f32⟩
  | .hbm, ⟨4, _⟩ => ⟨S256, .f32⟩
  | .hbm, ⟨5, _⟩ => ⟨S256, .f32⟩
  | .hbm, ⟨6, _⟩ => ⟨S256x256x256, .f32⟩
  | .hbm, ⟨7, _⟩ => ⟨S256x64x256, .f32⟩
  | .hbm, ⟨8, _⟩ => ⟨S256x3, .f32⟩
  | .hbm, ⟨9, _⟩ => ⟨S256x320, .f32⟩
  | .hbm, ⟨10, _⟩ => ⟨S3, .f32⟩
  | .hbm, ⟨11, _⟩ => ⟨S320, .f32⟩
  | .hbm, ⟨12, _⟩ => ⟨S256x256x256, .f32⟩
  | .hbm, ⟨13, _⟩ => ⟨S256x16x16x256, .f32⟩
  | .local _ .vmem, ⟨0, _⟩ => ⟨S1x256x256, .f32⟩
  | .local _ .vmem, ⟨1, _⟩ => ⟨S1x256x256, .f32⟩
  | .local _ .vmem, ⟨2, _⟩ => ⟨S1x64x256, .f32⟩
  | .local _ .vmem, ⟨3, _⟩ => ⟨S1x64x256, .f32⟩
  | .local _ .vmem, ⟨4, _⟩ => ⟨S256x3, .f32⟩
  | .local _ .vmem, ⟨5, _⟩ => ⟨S256x320, .f32⟩
  | .local _ .vmem, ⟨6, _⟩ => ⟨S3, .f32⟩
  | .local _ .vmem, ⟨7, _⟩ => ⟨S320, .f32⟩
  | .local _ .vmem, ⟨8, _⟩ => ⟨S256, .f32⟩
  | .local _ .vmem, ⟨9, _⟩ => ⟨S256, .f32⟩
  | .local _ .vmem, ⟨10, _⟩ => ⟨S1x256x256, .f32⟩
  | .local _ .vmem, ⟨11, _⟩ => ⟨S1x256x256, .f32⟩
  | _, _ => ⟨S256x8x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256x16x16x256_S256x256x256 : S256x16x16x256.ShapeCasts S256x256x256
  shapeCasts_S256x8x8x256_S256x64x256 : S256x8x8x256.ShapeCasts S256x64x256
  slices_S256x323_S256x3_0_0 : S256x323.Slices ![0, 0] S256x3
  slices_S256x323_S256x320_0_3 : S256x323.Slices ![0, 3] S256x320
  slices_S323_S3_0 : S323.Slices ![0] S3
  slices_S323_S320_3 : S323.Slices ![3] S320
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  concatenates_S256x256_S64x256_S320x256_d0 : Shape.Concatenates [S256x256, S64x256] S320x256 0
  bitsLt_bf16_f32 : FTy.bits .bf16 < FTy.bits .f32
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S256x320_S256x320_0_0 : ∀ a, (![0, 0] : Fin 2 → Nat) a + S256x320.size a ≤ S256x320.size a
  h_S256x320 : 0 < S256x320.numel
  shapeCasts_S256x320_S256x320 : S256x320.ShapeCasts S256x320
  inb_S3_S3_0 : ∀ a, (![0] : Fin 1 → Nat) a + S3.size a ≤ S3.size a
  h_S3 : 0 < S3.numel
  shapeCasts_S3_S3 : S3.ShapeCasts S3
  inb_S320_S320_0 : ∀ a, (![0] : Fin 1 → Nat) a + S320.size a ≤ S320.size a
  h_S320 : 0 < S320.numel
  shapeCasts_S320_S320 : S320.ShapeCasts S320
  inb_S256_S256_0 : ∀ a, (![0] : Fin 1 → Nat) a + S256.size a ≤ S256.size a
  h_S256 : 0 < S256.numel
  shapeCasts_S3_S1x3 : S3.ShapeCasts S1x3
  broadcasts_S1x3_S320x3 : S1x3.Broadcasts S320x3
  shapeCasts_S320_S1x320 : S320.ShapeCasts S1x320
  broadcasts_S1x320_S320x320 : S1x320.Broadcasts S320x320
  slices_S320x256_o0_0_S320x255 : S320x256.Slices ![0, 0] S320x255
  concatenates_S320x1_S320x255_S320x256_d1 : Shape.Concatenates [S320x1, S320x255] S320x256 1
  slices_S320x256_o0_1_S320x255 : S320x256.Slices ![0, 1] S320x255
  concatenates_S320x255_S320x1_S320x256_d1 : Shape.Concatenates [S320x255, S320x1] S320x256 1
  slices_S320x3_o0_0_S320x1 : S320x3.Slices ![0, 0] S320x1
  broadcasts_S320x1_S320x256 : S320x1.Broadcasts S320x256
  slices_S320x3_o0_1_S320x1 : S320x3.Slices ![0, 1] S320x1
  slices_S320x3_o0_2_S320x1 : S320x3.Slices ![0, 2] S320x1
  reduces_S320x256_S320 : S320x256.Reduces [1] S320
  shapeCasts_S320_S320x1 : S320.ShapeCasts S320x1
  shapeCasts_S256_S1x256 : S256.ShapeCasts S1x256
  broadcasts_S1x256_S320x256 : S1x256.Broadcasts S320x256
  slices_S320x256_o0_0_S256x256 : S320x256.Slices ![0, 0] S256x256
  shapeCasts_S256x256_S1x256x256 : S256x256.ShapeCasts S1x256x256
  shapeCasts_S256x256x256_S256x16x16x256 : S256x256x256.ShapeCasts S256x16x16x256
  dot_S320x256_S256x3_S320x3_1_0_0_1_n_n_wf : DotDims.WF S320x256 S256x3 S320x3 [1] [0] [0] [1] [] []
  dot_S320x256_S256x320_S320x320_1_0_0_1_n_n_wf : DotDims.WF S320x256 S256x320 S320x320 [1] [0] [0] [1] [] []
  dot_S320x320_S320x256_S320x256_1_0_0_1_n_n_wf : DotDims.WF S320x320 S320x256 S320x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S256x256x256.size a
  hwx0_0 : ∀ i : grid0.Coords, EltTy.bits .f32 = 32 ∨ (Rect.block (s := S256x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S256x64x256.size a
  hwx0_1 : ∀ i : grid0.Coords, EltTy.bits .f32 = 32 ∨ (Rect.block (s := S256x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x3.size a ≤ S256x3.size a
  hwx0_2 : ∀ i : grid0.Coords, EltTy.bits .f32 = 32 ∨ (Rect.block (s := S256x3) S256x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x320.size a ≤ S256x320.size a
  hwx0_3 : ∀ i : grid0.Coords, EltTy.bits .f32 = 32 ∨ (Rect.block (s := S256x320) S256x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S320.size a ≤ S320.size a
  hwx0_5 : ∀ i : grid0.Coords, EltTy.bits .f32 = 32 ∨ (Rect.block (s := S320) S320.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S256x256x256.size a
  hwx0_8 : ∀ i : grid0.Coords, EltTy.bits .f32 = 32 ∨ (Rect.block (s := S256x256x256) S1x256x256.size (cc0_transform_8 i) (hinb0_8 i)).WholeWords (EltTy.packing .f32)

variable [Facts₀]

def dot_S320x256_S256x3_S320x3_1_0_0_1_n_n : DotDims S320x256 S256x3 S320x3 where
  lhsContracting := [1]
  rhsContracting := [0]
  lhsNonContracting := [0]
  rhsNonContracting := [1]
  lhsBatch := []
  rhsBatch := []
  wf := dot_S320x256_S256x3_S320x3_1_0_0_1_n_n_wf
def dot_S320x256_S256x320_S320x320_1_0_0_1_n_n : DotDims S320x256 S256x320 S320x320 where
  lhsContracting := [1]
  rhsContracting := [0]
  lhsNonContracting := [0]
  rhsNonContracting := [1]
  lhsBatch := []
  rhsBatch := []
  wf := dot_S320x256_S256x320_S320x320_1_0_0_1_n_n_wf
def dot_S320x320_S320x256_S320x256_1_0_0_1_n_n : DotDims S320x320 S320x256 S320x256 where
  lhsContracting := [1]
  rhsContracting := [0]
  lhsNonContracting := [0]
  rhsNonContracting := [1]
  lhsBatch := []
  rhsBatch := []
  wf := dot_S320x320_S320x256_S320x256_1_0_0_1_n_n_wf

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S320.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x8x8x256 : Shape := ⟨4, ![256, 8, 8, 256]⟩
abbrev S256x16x16x256 : Shape := ⟨4, ![256, 16, 16, 256]⟩
abbrev S256x323 : Shape := ⟨2, ![256, 323]⟩
abbrev S323 : Shape := ⟨1, ![323]⟩
abbrev S256 : Shape := ⟨1, ![256]⟩
abbrev S256x256x256 : Shape := ⟨3, ![256, 256, 256]⟩
abbrev S256x64x256 : Shape := ⟨3, ![256, 64, 256]⟩
abbrev S256x320x256 : Shape := ⟨3, ![256, 320, 256]⟩
abbrev S256x320x323 : Shape := ⟨3, ![256, 320, 323]⟩
abbrev S1x1x323 : Shape := ⟨3, ![1, 1, 323]⟩
abbrev S256x320x3 : Shape := ⟨3, ![256, 320, 3]⟩
abbrev S256x320x320 : Shape := ⟨3, ![256, 320, 320]⟩
abbrev S_ : Shape := ⟨0, ![]⟩
abbrev S256x320x258 : Shape := ⟨3, ![256, 320, 258]⟩
abbrev S256x320x1 : Shape := ⟨3, ![256, 320, 1]⟩
abbrev S256x320 : Shape := ⟨2, ![256, 320]⟩
abbrev S1x1x256 : Shape := ⟨3, ![1, 1, 256]⟩

abbrev nBuf : Space → Nat
  | .hbm => 67
  | .vmem => 0
  | .smem => 0
  | _ => 0

abbrev bufTy : (tb : Table) → Fin (tcTables nBuf tb) → BufTy
  | .hbm, ⟨0, _⟩ => ⟨S256x8x8x256, .f32⟩
  | .hbm, ⟨1, _⟩ => ⟨S256x16x16x256, .f32⟩
  | .hbm, ⟨2, _⟩ => ⟨S256x323, .f32⟩
  | .hbm, ⟨3, _⟩ => ⟨S323, .f32⟩
  | .hbm, ⟨4, _⟩ => ⟨S256, .f32⟩
  | .hbm, ⟨5, _⟩ => ⟨S256, .f32⟩
  | .hbm, ⟨6, _⟩ => ⟨S256x256x256, .f32⟩
  | .hbm, ⟨7, _⟩ => ⟨S256x64x256, .f32⟩
  | .hbm, ⟨8, _⟩ => ⟨S256x320x256, .f32⟩
  | .hbm, ⟨9, _⟩ => ⟨S256x320x323, .f32⟩
  | .hbm, ⟨10, _⟩ => ⟨S1x1x323, .f32⟩
  | .hbm, ⟨11, _⟩ => ⟨S256x320x323, .f32⟩
  | .hbm, ⟨12, _⟩ => ⟨S256x320x323, .f32⟩
  | .hbm, ⟨13, _⟩ => ⟨S256x320x3, .f32⟩
  | .hbm, ⟨14, _⟩ => ⟨S256x320x320, .f32⟩
  | .hbm, ⟨15, _⟩ => ⟨S_, .i32⟩
  | .hbm, ⟨16, _⟩ => ⟨S_, .f32⟩
  | .hbm, ⟨17, _⟩ => ⟨S256x320x258, .f32⟩
  | .hbm, ⟨18, _⟩ => ⟨S256x320x1, .f32⟩
  | .hbm, ⟨19, _⟩ => ⟨S256x320x256, .f32⟩
  | .hbm, ⟨20, _⟩ => ⟨S256x320x256, .f32⟩
  | .hbm, ⟨21, _⟩ => ⟨S256x320x256, .f32⟩
  | .hbm, ⟨22, _⟩ => ⟨S256x320x1, .f32⟩
  | .hbm, ⟨23, _⟩ => ⟨S256x320x256, .f32⟩
  | .hbm, ⟨24, _⟩ => ⟨S256x320x256, .f32⟩
  | .hbm, ⟨25, _⟩ => ⟨S256x320x256, .f32⟩
  | .hbm, ⟨26, _⟩ => ⟨S256x320x256, .f32⟩
  | .hbm, ⟨27, _⟩ => ⟨S256x320x1, .f32⟩
  | .hbm, ⟨28, _⟩ => ⟨S256x320x256, .f32⟩
  | .hbm, ⟨29, _⟩ => ⟨S256x320x256, .f32⟩
  | .hbm, ⟨30, _⟩ => ⟨S256x320x256, .f32⟩
  | .hbm, ⟨31, _⟩ => ⟨S256x320x256, .f32⟩
  | .hbm, ⟨32, _⟩ => ⟨S_, .f32⟩
  | .hbm, ⟨33, _⟩ => ⟨S256x320x256, .f32⟩
  | .hbm, ⟨34, _⟩ => ⟨S256x320x256, .f32⟩
  | .hbm, ⟨35, _⟩ => ⟨S256x320x256, .f32⟩
  | .hbm, ⟨36, _⟩ => ⟨S_, .f32⟩
  | .hbm, ⟨37, _⟩ => ⟨S256x320, .f32⟩
  | .hbm, ⟨38, _⟩ => ⟨S256x320x1, .f32⟩
  | .hbm, ⟨39, _⟩ => ⟨S_, .f32⟩
  | .hbm, ⟨40, _⟩ => ⟨S256x320x1, .f32⟩
  | .hbm, ⟨41, _⟩ => ⟨S256x320x1, .f32⟩
  | .hbm, ⟨42, _⟩ => ⟨S256x320x256, .f32⟩
  | .hbm, ⟨43, _⟩ => ⟨S256x320x256, .f32⟩
  | .hbm, ⟨44, _⟩ => ⟨S256x320x256, .f32⟩
  | .hbm, ⟨45, _⟩ => ⟨S_, .f32⟩
  | .hbm, ⟨46, _⟩ => ⟨S256x320, .f32⟩
  | .hbm, ⟨47, _⟩ => ⟨S256x320x1, .f32⟩
  | .hbm, ⟨48, _⟩ => ⟨S_, .f32⟩
  | .hbm, ⟨49, _⟩ => ⟨S256x320x1, .f32⟩
  | .hbm, ⟨50, _⟩ => ⟨S256x320x1, .f32⟩
  | .hbm, ⟨51, _⟩ => ⟨S256x320x256, .f32⟩
  | .hbm, ⟨52, _⟩ => ⟨S256x320x256, .f32⟩
  | .hbm, ⟨53, _⟩ => ⟨S_, .f32⟩
  | .hbm, ⟨54, _⟩ => ⟨S256x320x1, .f32⟩
  | .hbm, ⟨55, _⟩ => ⟨S256x320x1, .f32⟩
  | .hbm, ⟨56, _⟩ => ⟨S256x320x1, .f32⟩
  | .hbm, ⟨57, _⟩ => ⟨S256x320x256, .f32⟩
  | .hbm, ⟨58, _⟩ => ⟨S256x320x256, .f32⟩
  | .hbm, ⟨59, _⟩ => ⟨S1x1x256, .f32⟩
  | .hbm, ⟨60, _⟩ => ⟨S256x320x256, .f32⟩
  | .hbm, ⟨61, _⟩ => ⟨S256x320x256, .f32⟩
  | .hbm, ⟨62, _⟩ => ⟨S1x1x256, .f32⟩
  | .hbm, ⟨63, _⟩ => ⟨S256x320x256, .f32⟩
  | .hbm, ⟨64, _⟩ => ⟨S256x320x256, .f32⟩
  | .hbm, ⟨65, _⟩ => ⟨S256x256x256, .f32⟩
  | .hbm, ⟨66, _⟩ => ⟨S256x16x16x256, .f32⟩
  | _, _ => ⟨S256x8x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  shapeCasts_S256x16x16x256_S256x256x256 : S256x16x16x256.ShapeCasts S256x256x256
  shapeCasts_S256x8x8x256_S256x64x256 : S256x8x8x256.ShapeCasts S256x64x256
  concatenates_S256x256x256_S256x64x256_S256x320x256_d1 : Shape.Concatenates [S256x256x256, S256x64x256] S256x320x256 1
  bcast_S323_S1x1x323_2 : S323.BroadcastsInDim S1x1x323 (![2] : Fin 1 → Fin S1x1x323.rank)
  bcast_S1x1x323_S256x320x323_0_1_2 : S1x1x323.BroadcastsInDim S256x320x323 (![0, 1, 2] : Fin 3 → Fin S256x320x323.rank)
  slices_S256x320x323_S256x320x3_0_0_0 : S256x320x323.Slices ![0, 0, 0] S256x320x3
  slices_S256x320x323_S256x320x320_0_0_3 : S256x320x323.Slices ![0, 0, 3] S256x320x320
  pads_S256x320x256_S256x320x258_000_000_110 : S256x320x256.Pads (![0, 0, 1] : Fin 3 → Nat) ![0, 0, 1] ![0, 0, 0] S256x320x258
  h_S_ : 0 < S_.numel
  slices_S256x320x3_S256x320x1_0_0_0 : S256x320x3.Slices ![0, 0, 0] S256x320x1
  slices_S256x320x258_S256x320x256_0_0_0 : S256x320x258.Slices ![0, 0, 0] S256x320x256
  bcast_S256x320x1_S256x320x256_0_1_2 : S256x320x1.BroadcastsInDim S256x320x256 (![0, 1, 2] : Fin 3 → Fin S256x320x256.rank)
  slices_S256x320x3_S256x320x1_0_0_1 : S256x320x3.Slices ![0, 0, 1] S256x320x1
  slices_S256x320x258_S256x320x256_0_0_1 : S256x320x258.Slices ![0, 0, 1] S256x320x256
  slices_S256x320x3_S256x320x1_0_0_2 : S256x320x3.Slices ![0, 0, 2] S256x320x1
  slices_S256x320x258_S256x320x256_0_0_2 : S256x320x258.Slices ![0, 0, 2] S256x320x256
  bcast_S_S256x320x256 : S_.BroadcastsInDim S256x320x256 (![] : Fin 0 → Fin S256x320x256.rank)
  reducesTo_S256x320x256_S256x320_d2 : S256x320x256.ReducesTo [2] S256x320
  bcast_S256x320_S256x320x1_0_1 : S256x320.BroadcastsInDim S256x320x1 (![0, 1] : Fin 2 → Fin S256x320x1.rank)
  bcast_S_S256x320x1 : S_.BroadcastsInDim S256x320x1 (![] : Fin 0 → Fin S256x320x1.rank)
  bcast_S256_S1x1x256_2 : S256.BroadcastsInDim S1x1x256 (![2] : Fin 1 → Fin S1x1x256.rank)
  bcast_S1x1x256_S256x320x256_0_1_2 : S1x1x256.BroadcastsInDim S256x320x256 (![0, 1, 2] : Fin 3 → Fin S256x320x256.rank)
  slices_S256x320x256_S256x256x256_0_0_0 : S256x320x256.Slices ![0, 0, 0] S256x256x256
  shapeCasts_S256x256x256_S256x16x16x256 : S256x256x256.ShapeCasts S256x16x16x256
  dot_S256x320x256_S256x323_S256x320x323_2_0_01_1_n_n_wf : DotDims.WF S256x320x256 S256x323 S256x320x323 [2] [0] [0, 1] [1] [] []
  dot_S256x320x320_S256x320x256_S256x320x256_2_1_1_2_0_0_wf : DotDims.WF S256x320x320 S256x320x256 S256x320x256 [2] [1] [1] [2] [0] [0]

variable [Facts₀]

def dot_S256x320x256_S256x323_S256x320x323_2_0_01_1_n_n : DotDims S256x320x256 S256x323 S256x320x323 where
  lhsContracting := [2]
  rhsContracting := [0]
  lhsNonContracting := [0, 1]
  rhsNonContracting := [1]
  lhsBatch := []
  rhsBatch := []
  wf := dot_S256x320x256_S256x323_S256x320x323_2_0_01_1_n_n_wf
def dot_S256x320x320_S256x320x256_S256x320x256_2_1_1_2_0_0 : DotDims S256x320x320 S256x320x256 S256x320x256 where
  lhsContracting := [2]
  rhsContracting := [1]
  lhsNonContracting := [1]
  rhsNonContracting := [2]
  lhsBatch := [0]
  rhsBatch := [0]
  wf := dot_S256x320x320_S256x320x256_S256x320x256_2_1_1_2_0_0_wf

class Facts : Prop extends Facts₀ where

variable [Facts]
-- ==== Proof.Spec.lean ====
/-
  The mathematics of one sample, as plain functions of coordinates on the extended reals.

  A sample is 320 rows of 256 channels: the 256 rows of the search feature map followed by the 64 rows of the
  template (`rows`). Every row is projected to 323 numbers, `proj X W b n j = (∑ k, X n k · W k j) + b j`.
  The first three are that row's own filter taps, the other 320 its mixing weights.  Each row is filtered along
  the channel axis with zero beyond both ends (`taps`: tap 0 meets the channel below, tap 1 the channel itself,
  tap 2 the channel above), rectified, and the rows are then mixed, row `m` taking `∑ p, weight m p · relu (filtered p c)`
  (`mix`).  Last, each mixed row is normalised over its 256 channels — centred by its mean, scaled by the inverse
  root of its variance plus a small offset — and sent through the affine map `γ, β` (`normed`).  Of the 320
  rows the first 256 are the result.

  Nothing here knows either program: both are shown to compute `sample`, so they agree.  No law beyond the
  definitions is needed, because the two programs associate every sum and product the same way.
-/
import Idealize.ShloMosaic.PureOps.Ideal
import Idealize.ShloMosaic.Lib.ValueIdx

noncomputable section

namespace Cert.DynConv

open Idealize.ShloMosaic Idealize.ShloMosaic.ValueIdx

/-- Zero, the row width 256 and the variance offset, as the float words both programs spell them. -/
abbrev zeroW : EReal := Ideal.ofBits .f32 0x00000000#32
abbrev widthW : EReal := Ideal.ofBits .f32 0x43800000#32
abbrev epsW : EReal := Ideal.ofBits .f32 0x3727C5AC#32

/-- Row `n < 256` among the 320 rows of a sample. -/
def up (n : Fin 256) : Fin 320 := ⟨n.val, by omega⟩
/-- Output `j < 3` of the projection: a filter tap. -/
def tapCol (j : Fin 3) : Fin 323 := ⟨j.val, by omega⟩
/-- Output `3 + p` of the projection: the mixing weight towards row `p`. -/
def mixCol (p : Fin 320) : Fin 323 := ⟨3 + p.val, by omega⟩

/-- The rows of a sample: the 256 rows of `A`, then the 64 rows of `B`. -/
def rows (A : Fin 256 → Fin 256 → EReal) (B : Fin 64 → Fin 256 → EReal) (n : Fin 320) (c : Fin 256) : EReal :=
  if h : n.val < 256 then A ⟨n.val, h⟩ c else B ⟨n.val - 256, by omega⟩ c

/-- The projection of row `n` to output `j`. -/
def proj (X : Fin 320 → Fin 256 → EReal) (W : Fin 256 → Fin 323 → EReal) (b : Fin 323 → EReal)
    (n : Fin 320) (j : Fin 323) : EReal :=
  (∑ k : Fin 256, X n k * W k j) + b j

/-- The row one channel below: at channel `c` the value at `c - 1`, zero at channel 0. -/
def below (X : Fin 320 → Fin 256 → EReal) (n : Fin 320) (c : Fin 256) : EReal :=
  if h : c.val = 0 then zeroW else X n ⟨c.val - 1, by omega⟩

/-- The row one channel above: at channel `c` the value at `c + 1`, zero at channel 255. -/
def above (X : Fin 320 → Fin 256 → EReal) (n : Fin 320) (c : Fin 256) : EReal :=
  if h : c.val + 1 < 256 then X n ⟨c.val + 1, h⟩ else zeroW

/-- The three-tap filter of row `n` at channel `c`, its taps the row's own `D n`. -/
def taps (X : Fin 320 → Fin 256 → EReal) (D : Fin 320 → Fin 3 → EReal) (n : Fin 320) (c : Fin 256) : EReal :=
  (D n 0 * below X n c + D n 1 * X n c) + D n 2 * above X n c

/-- Row `m` of the mix: the rectified rows `Cv` weighted by `P m`. -/
def mix (P : Fin 320 → Fin 320 → EReal) (Cv : Fin 320 → Fin 256 → EReal) (m : Fin 320) (c : Fin 256) : EReal :=
  ∑ p : Fin 320, P m p * max (Cv p c) zeroW

/-- The mean of row `m` over its 256 channels. -/
def rowMean (Y : Fin 320 → Fin 256 → EReal) (m : Fin 320) : EReal :=
  Ideal.div (∑ c : Fin 256, Y m c) widthW

/-- Row `m` centred. -/
def centred (Y : Fin 320 → Fin 256 → EReal) (m : Fin 320) (c : Fin 256) : EReal := Y m c - rowMean Y m

/-- The variance of row `m`: the mean of the squares of the centred row. -/
def rowVar (Y : Fin 320 → Fin 256 → EReal) (m : Fin 320) : EReal :=
  Ideal.div (∑ c : Fin 256, centred Y m c * centred Y m c) widthW

/-- The normalised row through the affine map. -/
def normed (Y : Fin 320 → Fin 256 → EReal) (γ β : Fin 256 → EReal) (m : Fin 320) (c : Fin 256) : EReal :=
  centred Y m c * Ideal.rsqrt (rowVar Y m + epsW) * γ c + β c

/-- One sample, from its rows `X`, the projection `W, b` and the affine map `γ, β`. -/
def sample (X : Fin 320 → Fin 256 → EReal) (W : Fin 256 → Fin 323 → EReal) (b : Fin 323 → EReal)
    (γ β : Fin 256 → EReal) (m : Fin 320) (c : Fin 256) : EReal :=
  normed (mix (fun n p => proj X W b n (mixCol p)) (taps X (fun n j => proj X W b n (tapCol j)))) γ β m c

/-- The whole result, sample by sample: from the search map `A` and the template `B` (both already laid out as
    samples × rows × channels), the projection and the affine map, entry `(s, n, c)` is row `n` of sample `s`. -/
def whole (A : (⟨3, ![256, 256, 256]⟩ : Shape).Idx → EReal) (B : (⟨3, ![256, 64, 256]⟩ : Shape).Idx → EReal)
    (W : (⟨2, ![256, 323]⟩ : Shape).Idx → EReal) (b : (⟨1, ![323]⟩ : Shape).Idx → EReal)
    (γ β : (⟨1, ![256]⟩ : Shape).Idx → EReal) : (⟨3, ![256, 256, 256]⟩ : Shape).Idx → EReal :=
  fun i => sample (rows (fun n c => A (ix3 (i 0) n c)) (fun n c => B (ix3 (i 0) n c)))
    (fun k j => W (ix2 k j)) (fun j => b (ix1 j)) (fun c => γ (ix1 c)) (fun c => β (ix1 c)) (up (i 1)) (i 2)

theorem whole_apply (A : (⟨3, ![256, 256, 256]⟩ : Shape).Idx → EReal) (B : (⟨3, ![256, 64, 256]⟩ : Shape).Idx → EReal)
    (W : (⟨2, ![256, 323]⟩ : Shape).Idx → EReal) (b : (⟨1, ![323]⟩ : Shape).Idx → EReal)
    (γ β : (⟨1, ![256]⟩ : Shape).Idx → EReal) (s n c : Fin 256) :
    whole A B W b γ β (ix3 s n c) = sample (rows (fun n c => A (ix3 s n c)) (fun n c => B (ix3 s n c)))
      (fun k j => W (ix2 k j)) (fun j => b (ix1 j)) (fun c => γ (ix1 c)) (fun c => β (ix1 c)) (up n) c := rfl

end Cert.DynConv

end
-- ==== Proof.KernelRows.lean ====
/-
  The kernel's block of one sample, read entry by entry: its 320 rows and their projection.

  The body joins the search block (256 rows) and the template block (64 rows) of the sample into one
  320 × 256 array: row `n` is search row `n` when `n < 256` and template row `n - 256` otherwise.  A matrix
  product into a zero accumulator is, entry by entry, the sum over the contracted channel `k` of the products
  of the two factors, and a change of float format does nothing to an extended real, so each of the two
  projections of the rows (to the 3 filter taps, to the 320 mixing weights) at `(n, j)` is
  `(∑ k, row n k · w k j) + bias j`.
-/
import proofs.«165235_j13408887899090_1_alg».proof.Proof.Gen.KernelIdeal.Skeleton
import proofs.«165235_j13408887899090_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The joined rows at `(n, c)`: the search block's row `n`, or the template block's row `n - 256`. -/
theorem rows_apply (x0 : Vec Ideal S1x256x256 .f32) (x1 : Vec Ideal S1x64x256 .f32) (n : Fin 320) (c : Fin 256) :
    k0_pay2 (F := Ideal) x0 x1 (ix2 n c)
      = DynConv.rows (fun p c => x0 (ix3 (0 : Fin 1) p c)) (fun p c => x1 (ix3 (0 : Fin 1) p c)) n c := by
  unfold k0_pay2 DynConv.rows
  by_cases h : n.val < 256
  · rw [dif_pos h]
    refine (concatenate_pair_apply_left (t := S320x256) (s₁ := S256x256) (s₂ := S64x256) (0 : Fin 2)
      (shapeCast S256x256 x0 shapeCasts_S1x256x256_S256x256) (shapeCast S64x256 x1 shapeCasts_S1x64x256_S64x256)
      concatenates_S256x256_S64x256_S320x256_d0 (ix2 n c) rfl
      (ix2 (⟨n.val, h⟩ : Fin 256) c) (fun b => match b with | ⟨0, _⟩ => rfl | ⟨1, _⟩ => rfl)).trans ?_
    exact shapeCast_1ab_ab_apply x0 shapeCasts_S1x256x256_S256x256 ⟨n.val, h⟩ c
  · rw [dif_neg h]
    have h2 : n.val - 256 < 64 := by have := n.isLt; omega
    refine (concatenate_pair_apply_right (t := S320x256) (s₁ := S256x256) (s₂ := S64x256) (0 : Fin 2)
      (shapeCast S256x256 x0 shapeCasts_S1x256x256_S256x256) (shapeCast S64x256 x1 shapeCasts_S1x64x256_S64x256)
      concatenates_S256x256_S64x256_S320x256_d0 (ix2 n c) rfl rfl
      (ix2 (⟨n.val - 256, h2⟩ : Fin 64) c) (fun b hb => match b, hb with | ⟨0, _⟩, hb => absurd rfl hb | ⟨1, _⟩, _ => rfl)
      (by show n.val - 256 + 256 = n.val; omega)).trans ?_
    exact shapeCast_1ab_ab_apply x1 shapeCasts_S1x64x256_S64x256 ⟨n.val - 256, h2⟩ c

/-- The operand indices of the product `tapDot` at output `(r, q)`: the left one keeps the output's row, the right
    one the output's column, and both take the contracted coordinate. -/
theorem tapDot_lhs0 (i : S320x3.Idx) (q : dot_S320x256_S256x3_S320x3_1_0_0_1_n_n.contr.Idx) : (dot_S320x256_S256x3_S320x3_1_0_0_1_n_n.lhsIdx i q 0).val = (i 0).val := by
  unfold DotDims.lhsIdx
  rw [dif_neg (show ¬(0 : Fin S320x256.rank) ∈ dot_S320x256_S256x3_S320x3_1_0_0_1_n_n.lhsBatch by decide),
    dif_pos (show (0 : Fin S320x256.rank) ∈ dot_S320x256_S256x3_S320x3_1_0_0_1_n_n.lhsNonContracting by decide)]
  rfl
theorem tapDot_lhs1 (i : S320x3.Idx) (q : dot_S320x256_S256x3_S320x3_1_0_0_1_n_n.contr.Idx) : (dot_S320x256_S256x3_S320x3_1_0_0_1_n_n.lhsIdx i q 1).val = (q ⟨0, by decide⟩).val :=
  dot_S320x256_S256x3_S320x3_1_0_0_1_n_n.lhsIdx_val_of_single rfl i q
theorem tapDot_rhs0 (i : S320x3.Idx) (q : dot_S320x256_S256x3_S320x3_1_0_0_1_n_n.contr.Idx) : (dot_S320x256_S256x3_S320x3_1_0_0_1_n_n.rhsIdx i q 0).val = (q ⟨0, by decide⟩).val :=
  dot_S320x256_S256x3_S320x3_1_0_0_1_n_n.rhsIdx_val_of_single rfl i q
theorem tapDot_rhs1 (i : S320x3.Idx) (q : dot_S320x256_S256x3_S320x3_1_0_0_1_n_n.contr.Idx) : (dot_S320x256_S256x3_S320x3_1_0_0_1_n_n.rhsIdx i q 1).val = (i 1).val := by
  unfold DotDims.rhsIdx
  rw [dif_neg (show ¬(1 : Fin S256x3.rank) ∈ dot_S320x256_S256x3_S320x3_1_0_0_1_n_n.rhsBatch by decide),
    dif_pos (show (1 : Fin S256x3.rank) ∈ dot_S320x256_S256x3_S320x3_1_0_0_1_n_n.rhsNonContracting by decide)]
  rfl

/-- The product `tapDot` into a zero accumulator at `(r, q)`: the sum over `k` of left `(r, k)` times right `(k, q)`. -/
theorem tapDot_apply {φ₁ φ₂ : FTy} (l : FVec Ideal S320x256 φ₁) (w : FVec Ideal S256x3 φ₂) (r : Fin 320) (q : Fin 3) :
    matmul dot_S320x256_S256x3_S320x3_1_0_0_1_n_n none l w (constant (F := Ideal) S320x3 .f32 0x00000000#32) (ix2 r q)
      = ∑ k : Fin 256, l (ix2 r k) * w (ix2 k q) := by
  simp only [matmul]
  rw [Ideal.matmul_constant_zero_apply, ← Equiv.sum_comp (contrEquiv1 dot_S320x256_S256x3_S320x3_1_0_0_1_n_n 256 rfl rfl).symm]
  refine Finset.sum_congr rfl fun k _ => ?_
  have hk := contrEquiv1_symm_val dot_S320x256_S256x3_S320x3_1_0_0_1_n_n 256 rfl rfl k
  have el : dot_S320x256_S256x3_S320x3_1_0_0_1_n_n.lhsIdx (ix2 r q) ((contrEquiv1 dot_S320x256_S256x3_S320x3_1_0_0_1_n_n 256 rfl rfl).symm k) = ix2 r k := funext fun a => Fin.ext (by
    match a with
    | ⟨0, _⟩ => exact tapDot_lhs0 _ _
    | ⟨1, _⟩ => exact (tapDot_lhs1 _ _).trans hk)
  have er : dot_S320x256_S256x3_S320x3_1_0_0_1_n_n.rhsIdx (ix2 r q) ((contrEquiv1 dot_S320x256_S256x3_S320x3_1_0_0_1_n_n 256 rfl rfl).symm k) = ix2 k q := funext fun a => Fin.ext (by
    match a with
    | ⟨0, _⟩ => exact (tapDot_rhs0 _ _).trans hk
    | ⟨1, _⟩ => exact tapDot_rhs1 _ _)
  rw [el, er]

/-- The operand indices of the product `wgtDot` at output `(r, q)`: the left one keeps the output's row, the right
    one the output's column, and both take the contracted coordinate. -/
theorem wgtDot_lhs0 (i : S320x320.Idx) (q : dot_S320x256_S256x320_S320x320_1_0_0_1_n_n.contr.Idx) : (dot_S320x256_S256x320_S320x320_1_0_0_1_n_n.lhsIdx i q 0).val = (i 0).val := by
  unfold DotDims.lhsIdx
  rw [dif_neg (show ¬(0 : Fin S320x256.rank) ∈ dot_S320x256_S256x320_S320x320_1_0_0_1_n_n.lhsBatch by decide),
    dif_pos (show (0 : Fin S320x256.rank) ∈ dot_S320x256_S256x320_S320x320_1_0_0_1_n_n.lhsNonContracting by decide)]
  rfl
theorem wgtDot_lhs1 (i : S320x320.Idx) (q : dot_S320x256_S256x320_S320x320_1_0_0_1_n_n.contr.Idx) : (dot_S320x256_S256x320_S320x320_1_0_0_1_n_n.lhsIdx i q 1).val = (q ⟨0, by decide⟩).val :=
  dot_S320x256_S256x320_S320x320_1_0_0_1_n_n.lhsIdx_val_of_single rfl i q
theorem wgtDot_rhs0 (i : S320x320.Idx) (q : dot_S320x256_S256x320_S320x320_1_0_0_1_n_n.contr.Idx) : (dot_S320x256_S256x320_S320x320_1_0_0_1_n_n.rhsIdx i q 0).val = (q ⟨0, by decide⟩).val :=
  dot_S320x256_S256x320_S320x320_1_0_0_1_n_n.rhsIdx_val_of_single rfl i q
theorem wgtDot_rhs1 (i : S320x320.Idx) (q : dot_S320x256_S256x320_S320x320_1_0_0_1_n_n.contr.Idx) : (dot_S320x256_S256x320_S320x320_1_0_0_1_n_n.rhsIdx i q 1).val = (i 1).val := by
  unfold DotDims.rhsIdx
  rw [dif_neg (show ¬(1 : Fin S256x320.rank) ∈ dot_S320x256_S256x320_S320x320_1_0_0_1_n_n.rhsBatch by decide),
    dif_pos (show (1 : Fin S256x320.rank) ∈ dot_S320x256_S256x320_S320x320_1_0_0_1_n_n.rhsNonContracting by decide)]
  rfl

/-- The product `wgtDot` into a zero accumulator at `(r, q)`: the sum over `k` of left `(r, k)` times right `(k, q)`. -/
theorem wgtDot_apply {φ₁ φ₂ : FTy} (l : FVec Ideal S320x256 φ₁) (w : FVec Ideal S256x320 φ₂) (r : Fin 320) (q : Fin 320) :
    matmul dot_S320x256_S256x320_S320x320_1_0_0_1_n_n none l w (constant (F := Ideal) S320x320 .f32 0x00000000#32) (ix2 r q)
      = ∑ k : Fin 256, l (ix2 r k) * w (ix2 k q) := by
  simp only [matmul]
  rw [Ideal.matmul_constant_zero_apply, ← Equiv.sum_comp (contrEquiv1 dot_S320x256_S256x320_S320x320_1_0_0_1_n_n 256 rfl rfl).symm]
  refine Finset.sum_congr rfl fun k _ => ?_
  have hk := contrEquiv1_symm_val dot_S320x256_S256x320_S320x320_1_0_0_1_n_n 256 rfl rfl k
  have el : dot_S320x256_S256x320_S320x320_1_0_0_1_n_n.lhsIdx (ix2 r q) ((contrEquiv1 dot_S320x256_S256x320_S320x320_1_0_0_1_n_n 256 rfl rfl).symm k) = ix2 r k := funext fun a => Fin.ext (by
    match a with
    | ⟨0, _⟩ => exact wgtDot_lhs0 _ _
    | ⟨1, _⟩ => exact (wgtDot_lhs1 _ _).trans hk)
  have er : dot_S320x256_S256x320_S320x320_1_0_0_1_n_n.rhsIdx (ix2 r q) ((contrEquiv1 dot_S320x256_S256x320_S320x320_1_0_0_1_n_n 256 rfl rfl).symm k) = ix2 k q := funext fun a => Fin.ext (by
    match a with
    | ⟨0, _⟩ => exact (wgtDot_rhs0 _ _).trans hk
    | ⟨1, _⟩ => exact wgtDot_rhs1 _ _)
  rw [el, er]

/-- The operand indices of the product `mixDot` at output `(r, q)`: the left one keeps the output's row, the right
    one the output's column, and both take the contracted coordinate. -/
theorem mixDot_lhs0 (i : S320x256.Idx) (q : dot_S320x320_S320x256_S320x256_1_0_0_1_n_n.contr.Idx) : (dot_S320x320_S320x256_S320x256_1_0_0_1_n_n.lhsIdx i q 0).val = (i 0).val := by
  unfold DotDims.lhsIdx
  rw [dif_neg (show ¬(0 : Fin S320x320.rank) ∈ dot_S320x320_S320x256_S320x256_1_0_0_1_n_n.lhsBatch by decide),
    dif_pos (show (0 : Fin S320x320.rank) ∈ dot_S320x320_S320x256_S320x256_1_0_0_1_n_n.lhsNonContracting by decide)]
  rfl
theorem mixDot_lhs1 (i : S320x256.Idx) (q : dot_S320x320_S320x256_S320x256_1_0_0_1_n_n.contr.Idx) : (dot_S320x320_S320x256_S320x256_1_0_0_1_n_n.lhsIdx i q 1).val = (q ⟨0, by decide⟩).val :=
  dot_S320x320_S320x256_S320x256_1_0_0_1_n_n.lhsIdx_val_of_single rfl i q
theorem mixDot_rhs0 (i : S320x256.Idx) (q : dot_S320x320_S320x256_S320x256_1_0_0_1_n_n.contr.Idx) : (dot_S320x320_S320x256_S320x256_1_0_0_1_n_n.rhsIdx i q 0).val = (q ⟨0, by decide⟩).val :=
  dot_S320x320_S320x256_S320x256_1_0_0_1_n_n.rhsIdx_val_of_single rfl i q
theorem mixDot_rhs1 (i : S320x256.Idx) (q : dot_S320x320_S320x256_S320x256_1_0_0_1_n_n.contr.Idx) : (dot_S320x320_S320x256_S320x256_1_0_0_1_n_n.rhsIdx i q 1).val = (i 1).val := by
  unfold DotDims.rhsIdx
  rw [dif_neg (show ¬(1 : Fin S320x256.rank) ∈ dot_S320x320_S320x256_S320x256_1_0_0_1_n_n.rhsBatch by decide),
    dif_pos (show (1 : Fin S320x256.rank) ∈ dot_S320x320_S320x256_S320x256_1_0_0_1_n_n.rhsNonContracting by decide)]
  rfl

/-- The product `mixDot` into a zero accumulator at `(r, q)`: the sum over `k` of left `(r, k)` times right `(k, q)`. -/
theorem mixDot_apply {φ₁ φ₂ : FTy} (l : FVec Ideal S320x320 φ₁) (w : FVec Ideal S320x256 φ₂) (r : Fin 320) (q : Fin 256) :
    matmul dot_S320x320_S320x256_S320x256_1_0_0_1_n_n none l w (constant (F := Ideal) S320x256 .f32 0x00000000#32) (ix2 r q)
      = ∑ k : Fin 320, l (ix2 r k) * w (ix2 k q) := by
  simp only [matmul]
  rw [Ideal.matmul_constant_zero_apply, ← Equiv.sum_comp (contrEquiv1 dot_S320x320_S320x256_S320x256_1_0_0_1_n_n 320 rfl rfl).symm]
  refine Finset.sum_congr rfl fun k _ => ?_
  have hk := contrEquiv1_symm_val dot_S320x320_S320x256_S320x256_1_0_0_1_n_n 320 rfl rfl k
  have el : dot_S320x320_S320x256_S320x256_1_0_0_1_n_n.lhsIdx (ix2 r q) ((contrEquiv1 dot_S320x320_S320x256_S320x256_1_0_0_1_n_n 320 rfl rfl).symm k) = ix2 r k := funext fun a => Fin.ext (by
    match a with
    | ⟨0, _⟩ => exact mixDot_lhs0 _ _
    | ⟨1, _⟩ => exact (mixDot_lhs1 _ _).trans hk)
  have er : dot_S320x320_S320x256_S320x256_1_0_0_1_n_n.rhsIdx (ix2 r q) ((contrEquiv1 dot_S320x320_S320x256_S320x256_1_0_0_1_n_n 320 rfl rfl).symm k) = ix2 k q := funext fun a => Fin.ext (by
    match a with
    | ⟨0, _⟩ => exact (mixDot_rhs0 _ _).trans hk
    | ⟨1, _⟩ => exact mixDot_rhs1 _ _)
  rw [el, er]

/-- The mixing weights of the sample: row `n` projected to weight `p`, `(∑ k, row n k · w k p) + bias p`. -/
theorem wgt_apply (x0 : Vec Ideal S1x256x256 .f32) (x1 : Vec Ideal S1x64x256 .f32) (x3 : Vec Ideal S256x320 .f32)
    (x5 : Vec Ideal S320 .f32) (n p : Fin 320) :
    k0_pay4 (F := Ideal) x0 x1 x3 x5 (ix2 n p)
      = (∑ k : Fin 256, k0_pay2 (F := Ideal) x0 x1 (ix2 n k) * x3 (ix2 k p)) + x5 (ix1 p) := by
  unfold k0_pay4 k0_pay3
  dsimp only
  rw [addf_apply, wgtDot_apply, broadcastTo_1b_ab_apply, shapeCast_a_1a_apply]
  simp only [shapeCast_self, truncf_apply]

end Cert.KernelIdeal.Body

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelTaps.lean ====
/-
  The kernel's three-tap filter, read entry by entry.

  The body shifts the 320 × 256 rows by one channel in either direction by cutting off the last (first) column and
  joining a zero column in front (behind): at channel `c` the first copy holds the row at `c - 1` and zero at
  `c = 0`, the second the row at `c + 1` and zero at `c = 255`.  Column `j` of the 320 × 3 taps, spread over the 256
  channels, is at `(n, c)` tap `j` of row `n`.  So the filtered row at `(n, c)` is
  `(tap 0 · below + tap 1 · row) + tap 2 · above`, with the taps the row's own projection.
-/
import proofs.«165235_j13408887899090_1_alg».proof.Proof.KernelRows
import proofs.«165235_j13408887899090_1_alg».proof.Proof.LibColumn

noncomputable section

namespace Cert.KernelIdeal.Body

open Cert.KernelIdeal Cert.KernelIdeal.Gen Idealize.ShloMosaic Idealize.ShloMosaic.ValueIdx

/-- The zero column in front of the rows without their last channel: the row one channel below. -/
theorem below_apply (X : FVec Ideal S320x256 .f32) (n : Fin 320) (c : Fin 256) :
    concatenate S320x256 1 [⟨S320x1, broadcast S320x1 (Scalar.ofBits (F := Ideal) .f32 0x00000000#32)⟩,
        ⟨S320x255, extractStridedSlice S320x255 ![0, 0] X slices_S320x256_o0_0_S320x255⟩]
      concatenates_S320x1_S320x255_S320x256_d1 (ix2 n c)
      = DynConv.below (fun n c => X (ix2 n c)) n c := by
  unfold DynConv.below
  by_cases h : c.val = 0
  · rw [dif_pos h]
    refine (concatenate_pair_apply_left (t := S320x256) (s₁ := S320x1) (s₂ := S320x255) (1 : Fin 2) _ _
      concatenates_S320x1_S320x255_S320x256_d1 (ix2 n c) rfl (ix2 n (0 : Fin 1))
      (fun b => match b with | ⟨0, _⟩ => rfl | ⟨1, _⟩ => h.symm)).trans ?_
    rfl
  · rw [dif_neg h]
    have h2 : c.val - 1 < 255 := by have := c.isLt; omega
    refine (concatenate_pair_apply_right (t := S320x256) (s₁ := S320x1) (s₂ := S320x255) (1 : Fin 2) _ _
      concatenates_S320x1_S320x255_S320x256_d1 (ix2 n c) rfl rfl (ix2 n (⟨c.val - 1, h2⟩ : Fin 255))
      (fun b hb => match b, hb with | ⟨0, _⟩, _ => rfl | ⟨1, _⟩, hb => absurd rfl hb)
      (by show c.val - 1 + 1 = c.val; omega)).trans ?_
    exact extractStridedSlice_apply ![0, 0] X slices_S320x256_o0_0_S320x255 _ (ix2 n ⟨c.val - 1, by omega⟩)
      (fun a => match a with
        | ⟨0, _⟩ => by show n.val = 0 + n.val; omega
        | ⟨1, _⟩ => by show c.val - 1 = 0 + (c.val - 1); omega)

/-- The rows without their first channel with the zero column behind: the row one channel above. -/
theorem above_apply (X : FVec Ideal S320x256 .f32) (n : Fin 320) (c : Fin 256) :
    concatenate S320x256 1 [⟨S320x255, extractStridedSlice S320x255 ![0, 1] X slices_S320x256_o0_1_S320x255⟩,
        ⟨S320x1, broadcast S320x1 (Scalar.ofBits (F := Ideal) .f32 0x00000000#32)⟩]
      concatenates_S320x255_S320x1_S320x256_d1 (ix2 n c)
      = DynConv.above (fun n c => X (ix2 n c)) n c := by
  unfold DynConv.above
  by_cases h : c.val + 1 < 256
  · rw [dif_pos h]
    have h2 : c.val < 255 := by omega
    refine (concatenate_pair_apply_left (t := S320x256) (s₁ := S320x255) (s₂ := S320x1) (1 : Fin 2) _ _
      concatenates_S320x255_S320x1_S320x256_d1 (ix2 n c) rfl (ix2 n (⟨c.val, h2⟩ : Fin 255))
      (fun b => match b with | ⟨0, _⟩ => rfl | ⟨1, _⟩ => rfl)).trans ?_
    exact extractStridedSlice_apply ![0, 1] X slices_S320x256_o0_1_S320x255 _ (ix2 n ⟨c.val + 1, h⟩)
      (fun a => match a with
        | ⟨0, _⟩ => by show n.val = 0 + n.val; omega
        | ⟨1, _⟩ => by show c.val + 1 = 1 + c.val; omega)
  · rw [dif_neg h]
    refine (concatenate_pair_apply_right (t := S320x256) (s₁ := S320x255) (s₂ := S320x1) (1 : Fin 2) _ _
      concatenates_S320x255_S320x1_S320x256_d1 (ix2 n c) rfl rfl (ix2 n (0 : Fin 1))
      (fun b hb => match b, hb with | ⟨0, _⟩, _ => rfl | ⟨1, _⟩, hb => absurd rfl hb)
      (by show 0 + 255 = c.val; have := c.isLt; omega)).trans ?_
    rfl

/-- Column `j` of the taps spread over the channels: at `(n, c)` tap `j` of row `n`. -/
theorem tapCol_apply (D : FVec Ideal S320x3 .f32) (j : Fin 3) (hs : S320x3.Slices ![0, j.val] S320x1)
    (n : Fin 320) (c : Fin 256) :
    broadcastTo S320x256 (extractStridedSlice S320x1 ![0, j.val] D hs) broadcasts_S320x1_S320x256 (ix2 n c)
      = D (ix2 n j) := by
  rw [Cert.LibColumn.broadcastTo_a1_ab_apply]
  exact extractStridedSlice_apply ![0, j.val] D hs _ (ix2 n j)
    (fun a => match a with
      | ⟨0, _⟩ => by show n.val = 0 + n.val; omega
      | ⟨1, _⟩ => by show j.val = j.val + 0; omega)

theorem tapCol0_apply (D : FVec Ideal S320x3 .f32) (n : Fin 320) (c : Fin 256) :
    broadcastTo S320x256 (extractStridedSlice S320x1 ![0, 0] D slices_S320x3_o0_0_S320x1) broadcasts_S320x1_S320x256 (ix2 n c)
      = D (ix2 n (0 : Fin 3)) := tapCol_apply D 0 slices_S320x3_o0_0_S320x1 n c
theorem tapCol1_apply (D : FVec Ideal S320x3 .f32) (n : Fin 320) (c : Fin 256) :
    broadcastTo S320x256 (extractStridedSlice S320x1 ![0, 1] D slices_S320x3_o0_1_S320x1) broadcasts_S320x1_S320x256 (ix2 n c)
      = D (ix2 n (1 : Fin 3)) := tapCol_apply D 1 slices_S320x3_o0_1_S320x1 n c
theorem tapCol2_apply (D : FVec Ideal S320x3 .f32) (n : Fin 320) (c : Fin 256) :
    broadcastTo S320x256 (extractStridedSlice S320x1 ![0, 2] D slices_S320x3_o0_2_S320x1) broadcasts_S320x1_S320x256 (ix2 n c)
      = D (ix2 n (2 : Fin 3)) := tapCol_apply D 2 slices_S320x3_o0_2_S320x1 n c

/-- The filtered rows before rectification: `DynConv.taps` of the joined rows, the taps each row's own projection
    `(∑ k, row n k · w k j) + bias j`. -/
theorem conv_apply (x0 : Vec Ideal S1x256x256 .f32) (x1 : Vec Ideal S1x64x256 .f32) (x2 : Vec Ideal S256x3 .f32)
    (x4 : Vec Ideal S3 .f32) (n : Fin 320) (c : Fin 256) :
    k0_pay5 (F := Ideal) x0 x1 x2 x4 (ix2 n c)
      = DynConv.taps (fun n c => k0_pay2 (F := Ideal) x0 x1 (ix2 n c))
          (fun n j => (∑ k : Fin 256, k0_pay2 (F := Ideal) x0 x1 (ix2 n k) * x2 (ix2 k j)) + x4 (ix1 j)) n c := by
  unfold k0_pay5 k0_pay3 DynConv.taps
  dsimp only
  simp only [addf_apply, mulf_apply, below_apply, above_apply, tapCol0_apply, tapCol1_apply, tapCol2_apply,
    tapDot_apply, broadcastTo_1b_ab_apply, shapeCast_a_1a_apply, shapeCast_self, truncf_apply]

end Cert.KernelIdeal.Body

end
-- ==== Proof.KernelNorm.lean ====
/-
  The kernel's rectified mix and row normalisation, read entry by entry.

  The rectified filtered rows are multiplied from the left by the 320 × 320 mixing weights: entry `(m, c)` is
  `∑ p, weight m p · max (filtered p c) 0`.  A sum of a 320 × 256 array along its channels, kept as a column and
  spread back, puts at `(m, c)` the sum of row `m`; so the body's mean, centred row, variance and inverse root are
  those of `DynConv.normed`, followed by the affine map whose two vectors are spread over the rows.  Only the
  first 256 of the 320 rows are stored, as one 1 × 256 × 256 block.
-/
import proofs.«165235_j13408887899090_1_alg».proof.Proof.KernelRows
import proofs.«165235_j13408887899090_1_alg».proof.Proof.LibColumn

noncomputable section

namespace Cert.KernelIdeal.Body

open Cert.KernelIdeal Cert.KernelIdeal.Gen Idealize.ShloMosaic Idealize.ShloMosaic.ValueIdx

/-- A sum along the channels at row `m`: the sum over `k` of the entries `(m, k)`. -/
theorem rowSum_apply (Y : FVec Ideal S320x256 .f32) (hφ : FTy.f32 = FTy.f32 ∨ FTy.f32 = FTy.bf16)
    (hacc : (0x00000000#32 : BitVec 32) = 0x00000000#32) (m : Fin 320) :
    multiReduction .add [1] S320 Y 0x00000000#32 reduces_S320x256_S320 hφ hacc (ix1 m) = ∑ k : Fin 256, Y (ix2 m k) := by
  refine (Ideal.multiReduction_add_single Y 0x00000000#32 reduces_S320x256_S320 hφ hacc (ix1 m)).trans ?_
  refine Finset.sum_congr rfl fun k _ => ?_
  exact congrArg Y (funext fun a => Fin.ext (by match a with | ⟨0, _⟩ => rfl | ⟨1, _⟩ => rfl))

/-- The inverse root of a vector, entry by entry. -/
theorem rsqrt_apply {s : Shape} (v : FVec Ideal s .f32) (i : s.Idx) : rsqrt v i = Ideal.rsqrt (v i) := rfl

/-- The first 256 rows of a 320 × 256 array. -/
theorem firstRows_apply (Y : FVec Ideal S320x256 .f32) (n c : Fin 256) :
    extractStridedSlice S256x256 ![0, 0] Y slices_S320x256_o0_0_S256x256 (ix2 n c) = Y (ix2 (DynConv.up n) c) :=
  extractStridedSlice_apply ![0, 0] Y slices_S320x256_o0_0_S256x256 _ (ix2 (DynConv.up n) c)
    (fun a => match a with
      | ⟨0, _⟩ => by show n.val = 0 + n.val; omega
      | ⟨1, _⟩ => by show c.val = 0 + c.val; omega)

/-- What the body stores at `(0, n, c)`: the normalised mix of the rectified rows, row `n`, through the affine map. -/
theorem out_apply (x6 x7 : Vec Ideal S256 .f32) (P : FVec Ideal S320x320 .f32) (Cv : FVec Ideal S320x256 .f32)
    (n c : Fin 256) :
    k0_pay1 (F := Ideal) x6 x7 P Cv (ix3 (0 : Fin 1) n c)
      = DynConv.normed (DynConv.mix (fun m p => P (ix2 m p)) (fun p c => Cv (ix2 p c)))
          (fun c => x6 (ix1 c)) (fun c => x7 (ix1 c)) (DynConv.up n) c := by
  unfold k0_pay1
  dsimp only
  -- the mixed rows, named once
  generalize hY : matmul (F := Ideal) dot_S320x320_S320x256_S320x256_1_0_0_1_n_n none _ _ _ = Y
  have hYm : ∀ (m : Fin 320) (k : Fin 256),
      Y (ix2 m k) = DynConv.mix (fun m p => P (ix2 m p)) (fun p c => Cv (ix2 p c)) m k := by
    intro m k
    rw [← hY, mixDot_apply]
    rfl
  rw [shapeCast_ab_1ab_apply, firstRows_apply]
  simp only [addf_apply, mulf_apply, subf_apply, divf_apply, broadcast_apply,
    broadcastTo_1b_ab_apply, shapeCast_a_1a_apply, Cert.LibColumn.broadcastTo_a1_ab_apply,
    Cert.LibColumn.shapeCast_a_a1_apply, rsqrt_apply]
  rw [rowSum_apply, rowSum_apply]
  simp only [addf_apply, mulf_apply, subf_apply, divf_apply, broadcast_apply,
    Cert.LibColumn.broadcastTo_a1_ab_apply, Cert.LibColumn.shapeCast_a_a1_apply]
  rw [rowSum_apply]
  simp only [hYm]
  rfl

end Cert.KernelIdeal.Body

end
-- ==== Proof.KernelValue.lean ====
/-
  The kernel's result array, as one function of the arguments.

  Before the call the host lays the search map out as 256 samples × 256 rows × 256 channels and the template as
  256 samples × 64 rows × 256 channels, and cuts the projection matrix and its bias into the 3 tap columns and the
  320 weight columns.  Grid point `t` works on sample `t`: its two input blocks are sample `t` of the two maps, the
  four projection pieces and the affine vectors are read whole at every point, and the output block is sample `t`
  of the result.  What the body stores there is `DynConv.sample` of that sample (the body lemmas), so the 256 blocks,
  which tile the result array, leave it holding `DynConv.whole`.  After the call the host only re-lays that array as
  256 × 16 × 16 × 256.
-/
import proofs.«165235_j13408887899090_1_alg».proof.Proof.Gen.KernelIdeal.Frame
import proofs.«165235_j13408887899090_1_alg».proof.Proof.KernelTaps
import proofs.«165235_j13408887899090_1_alg».proof.Proof.KernelNorm
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

/-- The search map as samples × rows × channels. -/
abbrev mapA (c : Dev nD) : S256x256x256.Idx → EReal :=
  shapeCast S256x256x256 (m ((c : Thread nD τ).loc main_arg1)) shapeCasts_S256x16x16x256_S256x256x256
/-- The template as samples × rows × channels. -/
abbrev mapB (c : Dev nD) : S256x64x256.Idx → EReal :=
  shapeCast S256x64x256 (m ((c : Thread nD τ).loc main_arg0)) shapeCasts_S256x8x8x256_S256x64x256

theorem V_v0 (c : Dev nD) : (V m c main_v0 : S256x256x256.Idx → EReal) = mapA m c := by
  show StableHlo.after hostOps0 (fun b => m (c, b)) (Proc.devRef .tc main_v0) = _
  after_results
  rfl
theorem V_v1 (c : Dev nD) : (V m c main_v1 : S256x64x256.Idx → EReal) = mapB m c := by
  show StableHlo.after hostOps0 (fun b => m (c, b)) (Proc.devRef .tc main_v1) = _
  after_results
  rfl
theorem V_v2 (c : Dev nD) : (V m c main_v2 : S256x3.Idx → EReal)
    = extractStridedSlice S256x3 ![0, 0] (m ((c : Thread nD τ).loc main_arg2)) slices_S256x323_S256x3_0_0 := by
  show StableHlo.after hostOps0 (fun b => m (c, b)) (Proc.devRef .tc main_v2) = _
  after_results
theorem V_v3 (c : Dev nD) : (V m c main_v3 : S256x320.Idx → EReal)
    = extractStridedSlice S256x320 ![0, 3] (m ((c : Thread nD τ).loc main_arg2)) slices_S256x323_S256x320_0_3 := by
  show StableHlo.after hostOps0 (fun b => m (c, b)) (Proc.devRef .tc main_v3) = _
  after_results
theorem V_v4 (c : Dev nD) : (V m c main_v4 : S3.Idx → EReal)
    = extractStridedSlice S3 ![0] (m ((c : Thread nD τ).loc main_arg3)) slices_S323_S3_0 := by
  show StableHlo.after hostOps0 (fun b => m (c, b)) (Proc.devRef .tc main_v4) = _
  after_results
theorem V_v5 (c : Dev nD) : (V m c main_v5 : S320.Idx → EReal)
    = extractStridedSlice S320 ![3] (m ((c : Thread nD τ).loc main_arg3)) slices_S323_S320_3 := by
  show StableHlo.after hostOps0 (fun b => m (c, b)) (Proc.devRef .tc main_v5) = _
  after_results

/-! ## One sample's block, over any loaded blocks -/

/-- The body's stored block at `(0, n, c)` is `DynConv.sample` at row `n`, channel `c`, whenever the eight loaded
    blocks hold the sample's two maps, the tap and weight columns of the projection and its bias, and the affine
    vectors. -/
theorem body_sample (x0 : Vec Ideal S1x256x256 .f32) (x1 : Vec Ideal S1x64x256 .f32) (x2 : Vec Ideal S256x3 .f32)
    (x3 : Vec Ideal S256x320 .f32) (x4 : Vec Ideal S3 .f32) (x5 : Vec Ideal S320 .f32) (x6 x7 : Vec Ideal S256 .f32)
    (A : Fin 256 → Fin 256 → EReal) (B : Fin 64 → Fin 256 → EReal) (W : Fin 256 → Fin 323 → EReal)
    (b : Fin 323 → EReal) (γ β : Fin 256 → EReal)
    (h0 : ∀ p q, x0 (ix3 (0 : Fin 1) p q) = A p q) (h1 : ∀ p q, x1 (ix3 (0 : Fin 1) p q) = B p q)
    (h2 : ∀ k j, x2 (ix2 k j) = W k (DynConv.tapCol j)) (h3 : ∀ k p, x3 (ix2 k p) = W k (DynConv.mixCol p))
    (h4 : ∀ j, x4 (ix1 j) = b (DynConv.tapCol j)) (h5 : ∀ p, x5 (ix1 p) = b (DynConv.mixCol p))
    (h6 : ∀ q, x6 (ix1 q) = γ q) (h7 : ∀ q, x7 (ix1 q) = β q) (n c : Fin 256) :
    k0_pay1 (F := Ideal) x6 x7 (k0_pay4 x0 x1 x3 x5) (k0_pay5 x0 x1 x2 x4) (ix3 (0 : Fin 1) n c)
      = DynConv.sample (DynConv.rows A B) W b γ β (DynConv.up n) c := by
  rw [Body.out_apply]
  simp only [Body.wgt_apply, Body.conv_apply, Body.rows_apply, h0, h1, h2, h3, h4, h5, h6, h7]
  rfl

/-! ## The grid: point `t` is sample `t` -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Grid point `t` as a sample number. -/
abbrev smp (t : Fin cfg0.N) : Fin 256 := Fin.cast N_0 t

/-- The printed index maps, decided over the grid: the two maps' blocks and the result's block move with the point
    along the sample axis, every other window stays on its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 1) = 0 ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-! ## The input blocks at a point, entry by entry -/

theorem blk0_at (c : Dev nD) (t : Fin cfg0.N) (p q : Fin 256) :
    iblk m c 0 t (ix3 (0 : Fin 1) p q) = mapA m c (ix3 (smp t) p q) := by
  obtain ⟨e0, e1, e2, -⟩ := idx_facts t
  show V m c main_v0 (((cfg0.win 0).blk t).view.emb (ix3 (0 : Fin 1) p q)) = _
  rw [V_v0]
  refine congrArg (mapA m c) (funext fun a => Fin.ext ?_)
  match a with
  | ⟨0, _⟩ => show win0_0.index t (0 : Fin 3) * 1 + 1 * 0 = t.val; omega
  | ⟨1, _⟩ => show win0_0.index t (1 : Fin 3) * 256 + 1 * p.val = p.val; omega
  | ⟨2, _⟩ => show win0_0.index t (2 : Fin 3) * 256 + 1 * q.val = q.val; omega

theorem blk1_at (c : Dev nD) (t : Fin cfg0.N) (p : Fin 64) (q : Fin 256) :
    iblk m c 1 t (ix3 (0 : Fin 1) p q) = mapB m c (ix3 (smp t) p q) := by
  obtain ⟨-, -, -, e0, e1, e2, -⟩ := idx_facts t
  show V m c main_v1 (((cfg0.win 1).blk t).view.emb (ix3 (0 : Fin 1) p q)) = _
  rw [V_v1]
  refine congrArg (mapB m c) (funext fun a => Fin.ext ?_)
  match a with
  | ⟨0, _⟩ => show win0_1.index t (0 : Fin 3) * 1 + 1 * 0 = t.val; omega
  | ⟨1, _⟩ => show win0_1.index t (1 : Fin 3) * 64 + 1 * p.val = p.val; omega
  | ⟨2, _⟩ => show win0_1.index t (2 : Fin 3) * 256 + 1 * q.val = q.val; omega

theorem blk2_at (c : Dev nD) (t : Fin cfg0.N) (k : Fin 256) (j : Fin 3) :
    iblk m c 2 t (ix2 k j) = m ((c : Thread nD τ).loc main_arg2) (ix2 k (DynConv.tapCol j)) := by
  obtain ⟨-, -, -, -, -, -, e0, e1, -⟩ := idx_facts t
  show V m c main_v2 (((cfg0.win 2).blk t).view.emb (ix2 k j)) = _
  rw [V_v2]
  exact extractStridedSlice_apply ![0, 0] _ slices_S256x323_S256x3_0_0 _ (ix2 k (DynConv.tapCol j)) (fun a => match a with
    | ⟨0, _⟩ => by show k.val = 0 + (win0_2.index t (0 : Fin 2) * 256 + 1 * k.val); omega
    | ⟨1, _⟩ => by show j.val = 0 + (win0_2.index t (1 : Fin 2) * 3 + 1 * j.val); omega)

theorem blk3_at (c : Dev nD) (t : Fin cfg0.N) (k : Fin 256) (p : Fin 320) :
    iblk m c 3 t (ix2 k p) = m ((c : Thread nD τ).loc main_arg2) (ix2 k (DynConv.mixCol p)) := by
  obtain ⟨-, -, -, -, -, -, -, -, e0, e1, -⟩ := idx_facts t
  show V m c main_v3 (((cfg0.win 3).blk t).view.emb (ix2 k p)) = _
  rw [V_v3]
  exact extractStridedSlice_apply ![0, 3] _ slices_S256x323_S256x320_0_3 _ (ix2 k (DynConv.mixCol p)) (fun a => match a with
    | ⟨0, _⟩ => by show k.val = 0 + (win0_3.index t (0 : Fin 2) * 256 + 1 * k.val); omega
    | ⟨1, _⟩ => by show 3 + p.val = 3 + (win0_3.index t (1 : Fin 2) * 320 + 1 * p.val); omega)

theorem blk4_at (c : Dev nD) (t : Fin cfg0.N) (j : Fin 3) :
    iblk m c 4 t (ix1 j) = m ((c : Thread nD τ).loc main_arg3) (ix1 (DynConv.tapCol j)) := by
  obtain ⟨-, -, -, -, -, -, -, -, -, -, e0, -⟩ := idx_facts t
  show V m c main_v4 (((cfg0.win 4).blk t).view.emb (ix1 j)) = _
  rw [V_v4]
  exact extractStridedSlice_apply ![0] _ slices_S323_S3_0 _ (ix1 (DynConv.tapCol j)) (fun a => match a with
    | ⟨0, _⟩ => by show j.val = 0 + (win0_4.index t (0 : Fin 1) * 3 + 1 * j.val); omega)

theorem blk5_at (c : Dev nD) (t : Fin cfg0.N) (p : Fin 320) :
    iblk m c 5 t (ix1 p) = m ((c : Thread nD τ).loc main_arg3) (ix1 (DynConv.mixCol p)) := by
  obtain ⟨-, -, -, -, -, -, -, -, -, -, -, e0, -⟩ := idx_facts t
  show V m c main_v5 (((cfg0.win 5).blk t).view.emb (ix1 p)) = _
  rw [V_v5]
  exact extractStridedSlice_apply ![3] _ slices_S323_S320_3 _ (ix1 (DynConv.mixCol p)) (fun a => match a with
    | ⟨0, _⟩ => by show 3 + p.val = 3 + (win0_5.index t (0 : Fin 1) * 320 + 1 * p.val); omega)

theorem blk6_at (c : Dev nD) (t : Fin cfg0.N) (q : Fin 256) :
    iblk m c 6 t (ix1 q) = m ((c : Thread nD τ).loc main_arg4) (ix1 q) := by
  obtain ⟨-, -, -, -, -, -, -, -, -, -, -, -, e0, -⟩ := idx_facts t
  show V m c main_arg4 (((cfg0.win 6).blk t).view.emb (ix1 q)) = _
  rw [V_main_arg4]
  refine congrArg (m ((c : Thread nD τ).loc main_arg4)) (funext fun a => Fin.ext ?_)
  match a with
  | ⟨0, _⟩ => show win0_6.index t (0 : Fin 1) * 256 + 1 * q.val = q.val; omega

theorem blk7_at (c : Dev nD) (t : Fin cfg0.N) (q : Fin 256) :
    iblk m c 7 t (ix1 q) = m ((c : Thread nD τ).loc main_arg5) (ix1 q) := by
  obtain ⟨-, -, -, -, -, -, -, -, -, -, -, -, -, e0, -⟩ := idx_facts t
  show V m c main_arg5 (((cfg0.win 7).blk t).view.emb (ix1 q)) = _
  rw [V_main_arg5]
  refine congrArg (m ((c : Thread nD τ).loc main_arg5)) (funext fun a => Fin.ext ?_)
  match a with
  | ⟨0, _⟩ => show win0_7.index t (0 : Fin 1) * 256 + 1 * q.val = q.val; omega

/-! ## What a point writes back, the cover, and the array after the run -/

/-- The result array's contents after the call: `DynConv.whole` of the two maps, the projection and the affine map. -/
abbrev result (c : Dev nD) : S256x256x256.Idx → EReal :=
  DynConv.whole (mapA m c) (mapB m c) (m ((c : Thread nD τ).loc main_arg2)) (m ((c : Thread nD τ).loc main_arg3))
    (m ((c : Thread nD τ).loc main_arg4)) (m ((c : Thread nD τ).loc main_arg5))

/-- The output block of point `t` sits at sample `t` of the result array. -/
theorem emb8_at (t : Fin cfg0.N) (p q : Fin 256) :
    ((cfg0.win 8).blk t).view.emb (ix3 (0 : Fin 1) p q) = ix3 (smp t) p q := by
  obtain ⟨-, -, -, -, -, -, -, -, -, -, -, -, -, -, e0, e1, e2⟩ := idx_facts t
  funext a
  apply Fin.ext
  match a with
  | ⟨0, _⟩ => show win0_8.index t (0 : Fin 3) * 1 + 1 * 0 = t.val; omega
  | ⟨1, _⟩ => show win0_8.index t (1 : Fin 3) * 256 + 1 * p.val = p.val; omega
  | ⟨2, _⟩ => show win0_8.index t (2 : Fin 3) * 256 + 1 * q.val = q.val; omega

/-- WHAT POINT `t` WRITES BACK is block `t` of `result`. -/
theorem flushed8_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after0_8]
  unfold out0_8
  rw [View.canon_unit_zero hz3]
  simp only [View.ld_unit_zero (S := S1x256x256) hz3, View.ld_unit_zero (S := S1x64x256) hz3,
    View.ld_unit_zero (S := S256x3) hz2, View.ld_unit_zero (S := S256x320) hz2, View.ld_unit_zero (S := S3) hz1,
    View.ld_unit_zero (S := S320) hz1, View.ld_unit_zero (S := S256) hz1]
  funext j
  obtain ⟨u, p, q, rfl⟩ : ∃ (u : Fin 1) (p q : Fin 256), j = ix3 u p q := ⟨j 0, j 1, j 2, eq_ix3 j⟩
  obtain rfl : u = 0 := Subsingleton.elim _ _
  refine (body_sample (iblk m c 0 t) (iblk m c 1 t) (iblk m c 2 t) (iblk m c 3 t) (iblk m c 4 t) (iblk m c 5 t)
    (iblk m c 6 t) (iblk m c 7 t)
    (fun p q => mapA m c (ix3 (smp t) p q)) (fun p q => mapB m c (ix3 (smp t) p q))
    (fun k j => m ((c : Thread nD τ).loc main_arg2) (ix2 k j)) (fun j => m ((c : Thread nD τ).loc main_arg3) (ix1 j))
    (fun q => m ((c : Thread nD τ).loc main_arg4) (ix1 q)) (fun q => m ((c : Thread nD τ).loc main_arg5) (ix1 q))
    (blk0_at m c t) (blk1_at m c t) (blk2_at m c t) (blk3_at m c t) (blk4_at m c t) (blk5_at m c t)
    (blk6_at m c t) (blk7_at m c t) p q).trans ?_
  show _ = result m c (((cfg0.win 8).blk t).view.emb (ix3 (0 : Fin 1) p q))
  rw [emb8_at]
  rfl

/-- An index of the result array is in point `t`'s block iff each coordinate is in the block's range on its axis. -/
theorem mem_blk8 (t : Fin cfg0.N) (i : S256x256x256.Idx) :
    i ∈ ((cfg0.win 8).blk t).view.set ↔ ∀ a : Fin 3, win0_8.index t a * S1x256x256.size a ≤ (i a).val
      ∧ (i a).val < win0_8.index t a * S1x256x256.size a + S1x256x256.size a := by
  show i ∈ ((View.whole main_v6).slice (win0_8.rect t)).set ↔ _
  rw [View.set_slice_whole, Rect.mem_set_unit]
  exact Iff.rfl

/-- THE COVER: entry `(s, n, c)` of the result array lies in the block of point `s`. -/
theorem cover8 (i : S256x256x256.Idx) :
    ∃ t : Fin cfg0.N, (cfg0.win 8).flush t = true ∧ i ∈ ((cfg0.win 8).blk t).view.set := by
  have h0 : (i 0).val < 256 := (i 0).isLt
  have h1 : (i 1).val < 256 := (i 1).isLt
  have h2 : (i 2).val < 256 := (i 2).isLt
  refine ⟨⟨(i 0).val, lt_of_lt_of_eq h0 N_0.symm⟩, flush0_8 _, ?_⟩
  obtain ⟨-, -, -, -, -, -, -, -, -, -, -, -, -, -, e0, e1, e2⟩ := idx_facts ⟨(i 0).val, lt_of_lt_of_eq h0 N_0.symm⟩
  rw [mem_blk8]
  intro a
  match a with
  | ⟨0, _⟩ =>
    show win0_8.index _ (0 : Fin 3) * 1 ≤ (i 0).val ∧ (i 0).val < win0_8.index _ (0 : Fin 3) * 1 + 1
    rw [e0]
    show (i 0).val * 1 ≤ (i 0).val ∧ (i 0).val < (i 0).val * 1 + 1
    omega
  | ⟨1, _⟩ =>
    show win0_8.index _ (1 : Fin 3) * 256 ≤ (i 1).val ∧ (i 1).val < win0_8.index _ (1 : Fin 3) * 256 + 256
    rw [e1]; omega
  | ⟨2, _⟩ =>
    show win0_8.index _ (2 : Fin 3) * 256 ≤ (i 2).val ∧ (i 2).val < win0_8.index _ (2 : Fin 3) * 256 + 256
    rw [e2]; omega

/-- THE ARRAY after the call. -/
theorem final8 (c : Dev nD) : (dats m 0 c).arrAt 8 cfg0.N = result m c :=
  (dats m 0 c).arrAt_eq_of_cover 8 (result m c) (fun t _ => flushed8_eq m c t) cover8

/-! ## The host's last line, and the run -/

/-- What @main returns: the result array re-laid as 256 × 16 × 16 × 256. -/
abbrev returned (c : Dev nD) : S256x16x16x256.Idx → EReal :=
  shapeCast S256x16x16x256 (result m c) shapeCasts_S256x256x256_S256x16x16x256

theorem tail_eq (c : Dev nD) :
    Pipeline.afterTail₀ cfgs (dats m) 0 (V0 m) [hostOps1] c main_v7 = returned m c := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6) = result m c :=
    (Pipeline.withArrays_arr spec0 launch0.win.arr_inj c (V0 m c) _ 8).trans (final8 m c)
  exact congrArg (fun X : S256x256x256.Idx → EReal =>
    shapeCast S256x16x16x256 X shapeCasts_S256x256x256_S256x16x16x256) e

/-- The kernel's run: every weakly fair execution ends with the returned array at `returned` and the six arguments
    as they were. -/
theorem run : θ_run defs (onTc (τ := τ) (main (F := Ideal))) ⟨m, fun _ => 0, ρ⟩ fun r => ∀ c : Dev nD,
      r.2.mem ((c.tc : Thread nD τ).loc main_v7) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c)))⟩)
    (run_main m ρ)

end Cert.KernelIdeal.KValue

end
-- ==== Proof.RefSide.lean ====
/-
  The reference program's result, read entry by entry, is the specification's `whole`.

  The reference joins the 256 rows of the search map and the 64 rows of the template into 320 rows per sample,
  projects every row to 323 numbers, filters each row along its channels with that row's own three taps (the row
  padded with one zero channel at each end), rectifies, mixes the 320 rows with the row's own 320 weights, and
  normalises each mixed row over its channels.  Each stage below reads one of the program's intermediate arrays at a
  coordinate triple `(s, n, c)` — sample, row, channel — and finds there the corresponding function of the
  specification, applied to the arrays of the stage before.  Nothing is reassociated: every sum and product appears
  in the program in the order the specification writes it, so each step is a definitional unfolding plus index
  bookkeeping.
-/
import proofs.«165235_j13408887899090_1_alg».proof.Proof.Gen.ReferenceIdeal.Read
import proofs.«165235_j13408887899090_1_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Idealize.ShloMosaic Idealize.ShloMosaic.ValueIdx Cert

/-- The joined rows: row `n` of sample `s` is row `n` of the search map when `n < 256`, and row `n - 256` of the
    template otherwise. -/
theorem v2_at (x0 : (⟨S256x8x8x256, .f32⟩ : BufTy).Contents (Elt Ideal)) (x1 : (⟨S256x16x16x256, .f32⟩ : BufTy).Contents (Elt Ideal)) (s : Fin 256) (n : Fin 320) (c : Fin 256) :
    Read.val_main_v2 (F := Ideal) x0 x1 (ix3 s n c)
      = DynConv.rows (fun p c => Read.val_main_v0 (F := Ideal) x1 (ix3 s p c))
          (fun p c => Read.val_main_v1 (F := Ideal) x0 (ix3 s p c)) n c := by
  unfold Read.val_main_v2 DynConv.rows
  by_cases h : n.val < 256
  · rw [dif_pos h]
    exact concatenate_pair_apply_left 1 _ _ concatenates_S256x256x256_S256x64x256_S256x320x256_d1 (ix3 s n c) rfl
      (ix3 s ⟨n.val, h⟩ c) (fun b => by match b with | ⟨0, _⟩ => rfl | ⟨1, _⟩ => rfl | ⟨2, _⟩ => rfl)
  · rw [dif_neg h]
    exact concatenate_pair_apply_right 1 _ _ concatenates_S256x256x256_S256x64x256_S256x320x256_d1 (ix3 s n c) rfl rfl
      (ix3 s ⟨n.val - 256, by omega⟩ c)
      (fun b hb => by match b with | ⟨0, _⟩ => rfl | ⟨1, _⟩ => exact absurd rfl hb | ⟨2, _⟩ => rfl)
      (by show n.val - 256 + 256 = n.val; omega)

/-- Index bookkeeping of the projection: the contraction reads row `(s, n)` at channel `k` against column `j` of the weights. -/
theorem lidx_v3_at (s : Fin 256) (n : Fin 320) (j : Fin 323) (k : Fin 256) :
    Read.lidx_main_v3 (ix3 s n j) k = ix3 s n k :=
  funext fun a => Fin.ext (by match a with | ⟨0, _⟩ => rfl | ⟨1, _⟩ => rfl | ⟨2, _⟩ => rfl)

theorem ridx_v3_at (s : Fin 256) (n : Fin 320) (j : Fin 323) (k : Fin 256) :
    Read.ridx_main_v3 (ix3 s n j) k = ix2 k j :=
  funext fun a => Fin.ext (by match a with | ⟨0, _⟩ => rfl | ⟨1, _⟩ => rfl)

theorem bias_idx_at (s : Fin 256) (n : Fin 320) (j : Fin 323) :
    Read.idx_main_v4 (Read.idx_main_v5 (ix3 s n j)) = ix1 j :=
  funext fun a => Fin.ext (by match a with | ⟨0, _⟩ => rfl)

/-- The projection: entry `(s, n, j)` is the sum over the 256 channels of row `n` against column `j` of the weights,
    plus the bias `j`. -/
theorem v6_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (j : Fin 323) :
    Read.val_main_v6 (F := Ideal) x0 x1 x2 x3 (ix3 s n j)
      = DynConv.proj (fun n k => Read.val_main_v2 (F := Ideal) x0 x1 (ix3 s n k)) (fun k j => x2 (ix2 k j))
          (fun j => x3 (ix1 j)) n j := by
  rw [Read.val_main_v6_apply, Read.val_main_v3_apply, Read.val_main_v5_apply, Read.val_main_v4_apply, bias_idx_at]
  unfold DynConv.proj
  refine congrArg (· + x3 (ix1 j)) (Finset.sum_congr rfl fun k _ => ?_)
  rw [lidx_v3_at, ridx_v3_at]

/-- The first three outputs of the projection are the filter taps. -/
theorem v7_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (j : Fin 3) :
    Read.val_main_v7 (F := Ideal) x0 x1 x2 x3 (ix3 s n j)
      = Read.val_main_v6 (F := Ideal) x0 x1 x2 x3 (ix3 s n (DynConv.tapCol j)) := by
  rw [Read.val_main_v7_apply]
  exact congrArg _ (funext fun a => Fin.ext (by match a with | ⟨0, _⟩ => rfl | ⟨1, _⟩ => rfl | ⟨2, _⟩ => rfl))

/-- The other 320 outputs of the projection are the mixing weights. -/
theorem v8_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (p : Fin 320) :
    Read.val_main_v8 (F := Ideal) x0 x1 x2 x3 (ix3 s n p)
      = Read.val_main_v6 (F := Ideal) x0 x1 x2 x3 (ix3 s n (DynConv.mixCol p)) := by
  rw [Read.val_main_v8_apply]
  exact congrArg _ (funext fun a => Fin.ext (by match a with | ⟨0, _⟩ => rfl | ⟨1, _⟩ => rfl | ⟨2, _⟩ => rfl))

/-- The padded row, inside: at channel `1 + c` of the 258 it is the row's channel `c`. -/
theorem v9_inside (x0 : (⟨S256x8x8x256, .f32⟩ : BufTy).Contents (Elt Ideal)) (x1 : (⟨S256x16x16x256, .f32⟩ : BufTy).Contents (Elt Ideal)) (j : S256x320x258.Idx) (s : Fin 256) (n : Fin 320) (c : Fin 256)
    (h0 : (j 0).val = s.val) (h1 : (j 1).val = n.val) (h2 : (j 2).val = 1 + c.val) :
    Read.val_main_v9 (F := Ideal) x0 x1 j = Read.val_main_v2 (F := Ideal) x0 x1 (ix3 s n c) := by
  unfold Read.val_main_v9
  exact pad_apply_of_inside _ _ _ _ _ pads_S256x320x256_S256x320x258_000_000_110 h_S_ j (ix3 s n c) (fun a => by
    match a with
    | ⟨0, _⟩ => show (j 0).val = 0 + s.val * (0 + 1); omega
    | ⟨1, _⟩ => show (j 1).val = 0 + n.val * (0 + 1); omega
    | ⟨2, _⟩ => show (j 2).val = 1 + c.val * (0 + 1); omega)

/-- The padded row, outside: its first and last of the 258 channels hold the padding value, the integer 0 read as a
    float, which is zero. -/
theorem v9_outside (x0 : (⟨S256x8x8x256, .f32⟩ : BufTy).Contents (Elt Ideal)) (x1 : (⟨S256x16x16x256, .f32⟩ : BufTy).Contents (Elt Ideal)) (j : S256x320x258.Idx) (h2 : (j 2).val = 0 ∨ (j 2).val = 257) :
    Read.val_main_v9 (F := Ideal) x0 x1 j = DynConv.zeroW := by
  unfold Read.val_main_v9
  rw [pad_apply_of_not_inside _ _ _ _ _ pads_S256x320x256_S256x320x258_000_000_110 h_S_ j 2 (by
    show ¬(1 ≤ (j 2).val ∧ ((j 2).val - 1) % (0 + 1) = 0 ∧ ((j 2).val - 1) / (0 + 1) < 256); omega)]
  show ((((0#32 : BitVec 32).toInt : ℝ) : EReal)) = Ideal.ofBits .f32 0x00000000#32
  rw [Ideal.ofBits_zero_f32]; simp

/-- Tap 0 meets the row one channel below: the slice of the padded row at offset 0. -/
theorem v11_at (x0 : (⟨S256x8x8x256, .f32⟩ : BufTy).Contents (Elt Ideal)) (x1 : (⟨S256x16x16x256, .f32⟩ : BufTy).Contents (Elt Ideal)) (s : Fin 256) (n : Fin 320) (c : Fin 256) :
    Read.val_main_v11 (F := Ideal) x0 x1 (ix3 s n c)
      = DynConv.below (fun n c => Read.val_main_v2 (F := Ideal) x0 x1 (ix3 s n c)) n c := by
  rw [Read.val_main_v11_apply]
  unfold DynConv.below
  by_cases h : c.val = 0
  · rw [dif_pos h]
    exact v9_outside x0 x1 _ (Or.inl h)
  · rw [dif_neg h]
    exact v9_inside x0 x1 _ s n ⟨c.val - 1, by omega⟩ rfl rfl (by show c.val = 1 + (c.val - 1); omega)

/-- Tap 1 meets the row itself: the slice of the padded row at offset 1. -/
theorem v15_at (x0 : (⟨S256x8x8x256, .f32⟩ : BufTy).Contents (Elt Ideal)) (x1 : (⟨S256x16x16x256, .f32⟩ : BufTy).Contents (Elt Ideal)) (s : Fin 256) (n : Fin 320) (c : Fin 256) :
    Read.val_main_v15 (F := Ideal) x0 x1 (ix3 s n c) = Read.val_main_v2 (F := Ideal) x0 x1 (ix3 s n c) := by
  rw [Read.val_main_v15_apply]
  exact v9_inside x0 x1 _ s n c rfl rfl rfl

/-- Tap 2 meets the row one channel above: the slice of the padded row at offset 2. -/
theorem v20_at (x0 : (⟨S256x8x8x256, .f32⟩ : BufTy).Contents (Elt Ideal)) (x1 : (⟨S256x16x16x256, .f32⟩ : BufTy).Contents (Elt Ideal)) (s : Fin 256) (n : Fin 320) (c : Fin 256) :
    Read.val_main_v20 (F := Ideal) x0 x1 (ix3 s n c)
      = DynConv.above (fun n c => Read.val_main_v2 (F := Ideal) x0 x1 (ix3 s n c)) n c := by
  rw [Read.val_main_v20_apply]
  unfold DynConv.above
  by_cases h : c.val + 1 < 256
  · rw [dif_pos h]
    exact v9_inside x0 x1 _ s n ⟨c.val + 1, h⟩ rfl rfl (by show 2 + c.val = 1 + (c.val + 1); omega)
  · rw [dif_neg h]
    exact v9_outside x0 x1 _ (Or.inr (by show 2 + c.val = 257; omega))

/-- Each tap is broadcast along the channels: at `(s, n, c)` the three broadcasts hold taps 0, 1, 2 of row `n`. -/
theorem v12_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (c : Fin 256) :
    Read.val_main_v12 (F := Ideal) x0 x1 x2 x3 (ix3 s n c) = Read.val_main_v7 (F := Ideal) x0 x1 x2 x3 (ix3 s n 0) := by
  rw [Read.val_main_v12_apply, Read.val_main_v10_apply]
  exact congrArg _ (funext fun a => Fin.ext (by match a with | ⟨0, _⟩ => rfl | ⟨1, _⟩ => rfl | ⟨2, _⟩ => rfl))

theorem v16_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (c : Fin 256) :
    Read.val_main_v16 (F := Ideal) x0 x1 x2 x3 (ix3 s n c) = Read.val_main_v7 (F := Ideal) x0 x1 x2 x3 (ix3 s n 1) := by
  rw [Read.val_main_v16_apply, Read.val_main_v14_apply]
  exact congrArg _ (funext fun a => Fin.ext (by match a with | ⟨0, _⟩ => rfl | ⟨1, _⟩ => rfl | ⟨2, _⟩ => rfl))

theorem v21_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (c : Fin 256) :
    Read.val_main_v21 (F := Ideal) x0 x1 x2 x3 (ix3 s n c) = Read.val_main_v7 (F := Ideal) x0 x1 x2 x3 (ix3 s n 2) := by
  rw [Read.val_main_v21_apply, Read.val_main_v19_apply]
  exact congrArg _ (funext fun a => Fin.ext (by match a with | ⟨0, _⟩ => rfl | ⟨1, _⟩ => rfl | ⟨2, _⟩ => rfl))

/-- The filtered row: tap 0 times the channel below, plus tap 1 times the channel, plus tap 2 times the channel above. -/
theorem v23_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (c : Fin 256) :
    Read.val_main_v23 (F := Ideal) x0 x1 x2 x3 (ix3 s n c)
      = DynConv.taps (fun n c => Read.val_main_v2 (F := Ideal) x0 x1 (ix3 s n c))
          (fun n j => Read.val_main_v7 (F := Ideal) x0 x1 x2 x3 (ix3 s n j)) n c := by
  rw [Read.val_main_v23_apply, Read.val_main_v18_apply, Read.val_main_v22_apply, Read.val_main_v13_apply,
    Read.val_main_v17_apply, v12_at, v16_at, v21_at, v11_at, v15_at, v20_at]
  rfl

/-- Rectification: the larger of the filtered entry and zero. -/
theorem v24_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (n : Fin 320) (c : Fin 256) :
    Read.val_main_v24 (F := Ideal) x0 x1 x2 x3 (ix3 s n c)
      = max (Read.val_main_v23 (F := Ideal) x0 x1 x2 x3 (ix3 s n c)) DynConv.zeroW := by
  rw [Read.val_main_v24_apply, Read.val_main_call1_v0_apply, Read.val_main_call1_cst_apply]
  rfl

/-- Index bookkeeping of the mix: output row `m` at channel `c` contracts weight `(m, p)` against row `p` at channel `c`. -/
theorem lidx_v25_at (s : Fin 256) (m : Fin 320) (c : Fin 256) (p : Fin 320) :
    Read.lidx_main_v25 (ix3 s m c) p = ix3 s m p :=
  funext fun a => Fin.ext (by match a with | ⟨0, _⟩ => rfl | ⟨1, _⟩ => rfl | ⟨2, _⟩ => rfl)

theorem ridx_v25_at (s : Fin 256) (m : Fin 320) (c : Fin 256) (p : Fin 320) :
    Read.ridx_main_v25 (ix3 s m c) p = ix3 s p c :=
  funext fun a => Fin.ext (by match a with | ⟨0, _⟩ => rfl | ⟨1, _⟩ => rfl | ⟨2, _⟩ => rfl)

/-- The mix: row `m` is the sum over the 320 rows `p` of weight `(m, p)` times the rectified filtered row `p`. -/
theorem v25_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (c : Fin 256) :
    Read.val_main_v25 (F := Ideal) x0 x1 x2 x3 (ix3 s m c)
      = DynConv.mix (fun m p => Read.val_main_v8 (F := Ideal) x0 x1 x2 x3 (ix3 s m p))
          (fun p c => Read.val_main_v23 (F := Ideal) x0 x1 x2 x3 (ix3 s p c)) m c := by
  rw [Read.val_main_v25_apply]
  unfold DynConv.mix
  refine Finset.sum_congr rfl fun p _ => ?_
  rw [lidx_v25_at, ridx_v25_at, v24_at]

/-- The row sum: the sum starts from zero and adds the 256 channels of the mixed row. -/
theorem v26_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) :
    Read.val_main_v26 (F := Ideal) x0 x1 x2 x3 (ix2 s m)
      = ∑ c : Fin 256, Read.val_main_v25 (F := Ideal) x0 x1 x2 x3 (ix3 s m c) := by
  rw [Read.val_main_v26_apply, Read.val_main_cst_apply, Ideal.ofBits_def, Ideal.ofBits_zero_f32, zero_add]
  refine Finset.sum_congr rfl fun k _ => ?_
  exact congrArg _ (funext fun a => Fin.ext (by match a with | ⟨0, _⟩ => rfl | ⟨1, _⟩ => rfl | ⟨2, _⟩ => rfl))

/-- The row mean: the row sum over the width 256. -/
theorem v29_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (z : Fin 1) :
    Read.val_main_v29 (F := Ideal) x0 x1 x2 x3 (ix3 s m z)
      = DynConv.rowMean (fun m c => Read.val_main_v25 (F := Ideal) x0 x1 x2 x3 (ix3 s m c)) m := by
  have hi : Read.idx_main_v27 (ix3 s m z) = ix2 s m :=
    funext fun a => Fin.ext (by match a with | ⟨0, _⟩ => rfl | ⟨1, _⟩ => rfl)
  rw [Read.val_main_v29_apply, Read.val_main_v27_apply, Read.val_main_v28_apply, Read.val_main_cst_0_apply, hi, v26_at]
  rfl

/-- The centred row, as the program computes it for the variance. -/
theorem v31_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (c : Fin 256) :
    Read.val_main_v31 (F := Ideal) x0 x1 x2 x3 (ix3 s m c)
      = DynConv.centred (fun m c => Read.val_main_v25 (F := Ideal) x0 x1 x2 x3 (ix3 s m c)) m c := by
  have hi : Read.idx_main_v30 (ix3 s m c) = ix3 s m (0 : Fin 1) :=
    funext fun a => Fin.ext (by match a with | ⟨0, _⟩ => rfl | ⟨1, _⟩ => rfl | ⟨2, _⟩ => rfl)
  rw [Read.val_main_v31_apply, Read.val_main_v30_apply, hi, v29_at]
  rfl

/-- The centred row again, as the program computes it for the result. -/
theorem v38_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (c : Fin 256) :
    Read.val_main_v38 (F := Ideal) x0 x1 x2 x3 (ix3 s m c)
      = DynConv.centred (fun m c => Read.val_main_v25 (F := Ideal) x0 x1 x2 x3 (ix3 s m c)) m c := by
  have hi : Read.idx_main_v37 (ix3 s m c) = ix3 s m (0 : Fin 1) :=
    funext fun a => Fin.ext (by match a with | ⟨0, _⟩ => rfl | ⟨1, _⟩ => rfl | ⟨2, _⟩ => rfl)
  rw [Read.val_main_v38_apply, Read.val_main_v37_apply, hi, v29_at]
  rfl

/-- The sum of squares of the centred row. -/
theorem v33_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) :
    Read.val_main_v33 (F := Ideal) x0 x1 x2 x3 (ix2 s m)
      = ∑ c : Fin 256, DynConv.centred (fun m c => Read.val_main_v25 (F := Ideal) x0 x1 x2 x3 (ix3 s m c)) m c
          * DynConv.centred (fun m c => Read.val_main_v25 (F := Ideal) x0 x1 x2 x3 (ix3 s m c)) m c := by
  rw [Read.val_main_v33_apply, Read.val_main_cst_1_apply, Ideal.ofBits_def, Ideal.ofBits_zero_f32, zero_add]
  refine Finset.sum_congr rfl fun k _ => ?_
  have hi : Read.idx_main_v33 (ix2 s m) k = ix3 s m k :=
    funext fun a => Fin.ext (by match a with | ⟨0, _⟩ => rfl | ⟨1, _⟩ => rfl | ⟨2, _⟩ => rfl)
  rw [hi, Read.val_main_v32_apply, v31_at]
  rfl

/-- The row variance: the mean of the squares of the centred row. -/
theorem v36_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (z : Fin 1) :
    Read.val_main_v36 (F := Ideal) x0 x1 x2 x3 (ix3 s m z)
      = DynConv.rowVar (fun m c => Read.val_main_v25 (F := Ideal) x0 x1 x2 x3 (ix3 s m c)) m := by
  have hi : Read.idx_main_v34 (ix3 s m z) = ix2 s m :=
    funext fun a => Fin.ext (by match a with | ⟨0, _⟩ => rfl | ⟨1, _⟩ => rfl)
  rw [Read.val_main_v36_apply, Read.val_main_v34_apply, Read.val_main_v35_apply, Read.val_main_cst_2_apply, hi, v33_at]
  rfl

/-- The scale of row `m`: the inverse root of the variance plus the small offset, the same at every channel. -/
theorem v42_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) (m : Fin 320) (c : Fin 256) :
    Read.val_main_v42 (F := Ideal) x0 x1 x2 x3 (ix3 s m c)
      = Ideal.rsqrt (DynConv.rowVar (fun m c => Read.val_main_v25 (F := Ideal) x0 x1 x2 x3 (ix3 s m c)) m + DynConv.epsW) := by
  have hi : Read.idx_main_v42 (ix3 s m c) = ix3 s m (0 : Fin 1) :=
    funext fun a => Fin.ext (by match a with | ⟨0, _⟩ => rfl | ⟨1, _⟩ => rfl | ⟨2, _⟩ => rfl)
  rw [Read.val_main_v42_apply, hi, Read.val_main_v41_apply, Read.val_main_v40_apply, v36_at, Read.val_main_v39_apply,
    Read.val_main_cst_3_apply]
  rfl

/-- The two affine parameters are broadcast along samples and rows: at `(s, m, c)` they are their entry `c`. -/
theorem v45_at (x4 : (⟨S256, .f32⟩ : BufTy).Contents (Elt Ideal)) (s : Fin 256) (m : Fin 320) (c : Fin 256) :
    Read.val_main_v45 (F := Ideal) x4 (ix3 s m c) = x4 (ix1 c) := by
  rw [Read.val_main_v45_apply, Read.val_main_v44_apply]
  exact congrArg _ (funext fun a => Fin.ext (by match a with | ⟨0, _⟩ => rfl))

theorem v48_at (x5 : (⟨S256, .f32⟩ : BufTy).Contents (Elt Ideal)) (s : Fin 256) (m : Fin 320) (c : Fin 256) :
    Read.val_main_v48 (F := Ideal) x5 (ix3 s m c) = x5 (ix1 c) := by
  rw [Read.val_main_v48_apply, Read.val_main_v47_apply]
  exact congrArg _ (funext fun a => Fin.ext (by match a with | ⟨0, _⟩ => rfl))

/-- The normalised row through the affine map. -/
theorem v49_at (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (x4 x5 : (⟨S256, .f32⟩ : BufTy).Contents (Elt Ideal)) (s : Fin 256) (m : Fin 320) (c : Fin 256) :
    Read.val_main_v49 (F := Ideal) x0 x1 x2 x3 x4 x5 (ix3 s m c)
      = DynConv.normed (fun m c => Read.val_main_v25 (F := Ideal) x0 x1 x2 x3 (ix3 s m c))
          (fun c => x4 (ix1 c)) (fun c => x5 (ix1 c)) m c := by
  rw [Read.val_main_v49_apply, Read.val_main_v46_apply, Read.val_main_v43_apply, v38_at, v42_at, v45_at, v48_at]
  rfl

/-- The rows of sample `s`, as a function of row and channel: the search map's rows followed by the template's. -/
theorem rows_eq (x0 : (⟨S256x8x8x256, .f32⟩ : BufTy).Contents (Elt Ideal)) (x1 : (⟨S256x16x16x256, .f32⟩ : BufTy).Contents (Elt Ideal)) (s : Fin 256) :
    (fun n c => Read.val_main_v2 (F := Ideal) x0 x1 (ix3 s n c))
      = DynConv.rows (fun p c => Read.val_main_v0 (F := Ideal) x1 (ix3 s p c))
          (fun p c => Read.val_main_v1 (F := Ideal) x0 (ix3 s p c)) := by
  funext n c; exact v2_at x0 x1 s n c

/-- The mixed rows of sample `s` are the specification's mix of its filtered rows: the mixing weights and the taps are
    both columns of the one projection of the sample's rows. -/
theorem v25_eq (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (s : Fin 256) :
    (fun m c => Read.val_main_v25 (F := Ideal) x0 x1 x2 x3 (ix3 s m c))
      = DynConv.mix
          (fun n p => DynConv.proj
            (DynConv.rows (fun p c => Read.val_main_v0 (F := Ideal) x1 (ix3 s p c))
              (fun p c => Read.val_main_v1 (F := Ideal) x0 (ix3 s p c)))
            (fun k j => x2 (ix2 k j)) (fun j => x3 (ix1 j)) n (DynConv.mixCol p))
          (DynConv.taps
            (DynConv.rows (fun p c => Read.val_main_v0 (F := Ideal) x1 (ix3 s p c))
              (fun p c => Read.val_main_v1 (F := Ideal) x0 (ix3 s p c)))
            (fun n j => DynConv.proj
              (DynConv.rows (fun p c => Read.val_main_v0 (F := Ideal) x1 (ix3 s p c))
                (fun p c => Read.val_main_v1 (F := Ideal) x0 (ix3 s p c)))
              (fun k j => x2 (ix2 k j)) (fun j => x3 (ix1 j)) n (DynConv.tapCol j))) := by
  have hP : (fun m p => Read.val_main_v8 (F := Ideal) x0 x1 x2 x3 (ix3 s m p))
      = fun n p => DynConv.proj
          (DynConv.rows (fun p c => Read.val_main_v0 (F := Ideal) x1 (ix3 s p c))
            (fun p c => Read.val_main_v1 (F := Ideal) x0 (ix3 s p c)))
          (fun k j => x2 (ix2 k j)) (fun j => x3 (ix1 j)) n (DynConv.mixCol p) := by
    funext m p; rw [v8_at, v6_at, rows_eq]
  have hD : (fun n j => Read.val_main_v7 (F := Ideal) x0 x1 x2 x3 (ix3 s n j))
      = fun n j => DynConv.proj
          (DynConv.rows (fun p c => Read.val_main_v0 (F := Ideal) x1 (ix3 s p c))
            (fun p c => Read.val_main_v1 (F := Ideal) x0 (ix3 s p c)))
          (fun k j => x2 (ix2 k j)) (fun j => x3 (ix1 j)) n (DynConv.tapCol j) := by
    funext n j; rw [v7_at, v6_at, rows_eq]
  have hC : (fun p c => Read.val_main_v23 (F := Ideal) x0 x1 x2 x3 (ix3 s p c))
      = DynConv.taps
          (DynConv.rows (fun p c => Read.val_main_v0 (F := Ideal) x1 (ix3 s p c))
            (fun p c => Read.val_main_v1 (F := Ideal) x0 (ix3 s p c)))
          (fun n j => DynConv.proj
            (DynConv.rows (fun p c => Read.val_main_v0 (F := Ideal) x1 (ix3 s p c))
              (fun p c => Read.val_main_v1 (F := Ideal) x0 (ix3 s p c)))
            (fun k j => x2 (ix2 k j)) (fun j => x3 (ix1 j)) n (DynConv.tapCol j)) := by
    funext p c; rw [v23_at, hD, rows_eq]
  funext m c
  rw [v25_at, hP, hC]

/-- Entry `(s, n, c)` of the reference's result — the first 256 of the 320 normalised rows — is row `n` of the
    specification's sample `s`. -/
theorem stage_eq_whole (x0 : (⟨S256x8x8x256, .f32⟩ : BufTy).Contents (Elt Ideal)) (x1 : (⟨S256x16x16x256, .f32⟩ : BufTy).Contents (Elt Ideal)) (x2 : (⟨S256x323, .f32⟩ : BufTy).Contents (Elt Ideal)) (x3 : (⟨S323, .f32⟩ : BufTy).Contents (Elt Ideal)) (x4 x5 : (⟨S256, .f32⟩ : BufTy).Contents (Elt Ideal)) :
    Read.val_main_v50 (F := Ideal) x0 x1 x2 x3 x4 x5
      = Cert.DynConv.whole (Read.val_main_v0 (F := Ideal) x1) (Read.val_main_v1 (F := Ideal) x0) x2 x3 x4 x5 := by
  funext i
  obtain ⟨s, n, c, rfl⟩ : ∃ (s n c : Fin 256), i = ix3 s n c := ⟨i 0, i 1, i 2, eq_ix3 i⟩
  have hi : Read.idx_main_v50 (ix3 s n c) = ix3 s (DynConv.up n) c :=
    funext fun a => Fin.ext (by match a with | ⟨0, _⟩ => rfl | ⟨1, _⟩ => rfl | ⟨2, _⟩ => rfl)
  rw [Read.val_main_v50_apply, hi, v49_at, v25_eq, DynConv.whole_apply]
  rfl

end Cert.ReferenceIdeal.RefValue

end
-- ==== Proof.lean ====
/-
  The claim: a fused kernel for dynamically weighted filtering against its plain reference.

  For each of 256 samples both programs take the 256 rows of a search feature map and the 64 rows of a template,
  each row 256 channels wide, as one 320-row sample; project every row to its own three filter taps and its own 320
  mixing weights; filter each row along the channel axis with zero beyond both ends; rectify; mix the 320 filtered
  rows by the weights; normalise every mixed row over its channels and apply an affine map; and keep the first 256
  rows.  The kernel does this one sample per grid point, with the projection cut by the host into a tap part and a
  weight part and its matrix products taken in a narrower float format; the reference does it on whole arrays with
  one projection that is sliced afterwards and the filter written through a zero-padded copy.  On the extended reals
  a change of float format is the identity and a matrix product is the plain sum of products, and the two programs
  associate every sum and product alike, so both compute the function `DynConv.whole` (Proof/Spec.lean) entry by
  entry: the kernel by Proof/KernelRows, KernelTaps, KernelNorm (its body) and KernelValue (its blocks, which tile the
  result array, and the host's re-layout after the call), the reference by Proof/RefSide.  No finiteness of the inputs
  is used.  The three frames are the generated ones; the idealisation rewrote nothing, so `preserves` holds trivially.
-/
import proofs.«165235_j13408887899090_1_alg».proof.Defs
import proofs.«165235_j13408887899090_1_alg».proof.Proof.Gen.Kernel
import proofs.«165235_j13408887899090_1_alg».proof.Proof.Gen.Kernel.Skeleton
import proofs.«165235_j13408887899090_1_alg».proof.Proof.Gen.Kernel.Launch
import proofs.«165235_j13408887899090_1_alg».proof.Proof.Gen.Kernel.Points
import proofs.«165235_j13408887899090_1_alg».proof.Proof.Gen.Kernel.Frame
import proofs.«165235_j13408887899090_1_alg».proof.Proof.Gen.KernelIdeal
import proofs.«165235_j13408887899090_1_alg».proof.Proof.Gen.KernelIdeal.Skeleton
import proofs.«165235_j13408887899090_1_alg».proof.Proof.Gen.KernelIdeal.Launch
import proofs.«165235_j13408887899090_1_alg».proof.Proof.Gen.KernelIdeal.Points
import proofs.«165235_j13408887899090_1_alg».proof.Proof.Gen.KernelIdeal.Frame
import proofs.«165235_j13408887899090_1_alg».proof.Proof.Gen.ReferenceIdeal
import proofs.«165235_j13408887899090_1_alg».proof.Proof.Gen.ReferenceIdeal.Run
import proofs.«165235_j13408887899090_1_alg».proof.Proof.Gen.ReferenceIdeal.Read
import proofs.«165235_j13408887899090_1_alg».proof.Proof.Gen.Pre_finite_inputs
import proofs.«165235_j13408887899090_1_alg».proof.Proof.KernelValue
import proofs.«165235_j13408887899090_1_alg».proof.Proof.RefSide
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation changed no operation. -/
theorem preserves : Cert.preserves_Kernel_KernelIdeal := trivial

/-- From memories that agree on the six arguments, the kernel's returned array and the reference's are the same
    re-layout of `DynConv.whole` of the same arrays. -/
theorem algebraic : Cert.algebraic_KernelIdeal_ReferenceIdeal := by
  intro m ρ m' ρ' _ hagree
  refine ⟨fun c => Cert.KernelIdeal.KValue.returned m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v51_eq, a0, a1, a2, a3, a4, a5]
  unfold Cert.ReferenceIdeal.Read.val_main_v51
  rw [Cert.ReferenceIdeal.RefValue.stage_eq_whole]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
